-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel

variable [Facts]

def fn {F : FTy → Type} [FloatOps F] (main_arg0 : FVec F S64x8192 .f32) (main_arg1 : FVec F S64x8192 .f32) (main_arg2 : IVec S8192x8192 32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  main_v8
-- ==== Kernel.lean ====
abbrev S64x8192 : Shape := ⟨2, ![64, 8192]⟩
abbrev S8192x8192 : Shape := ⟨2, ![8192, 8192]⟩
abbrev S_ : Shape := ⟨0, ![]⟩
abbrev S8x8192 : Shape := ⟨2, ![8, 8192]⟩
abbrev S136x8192 : Shape := ⟨2, ![136, 8192]⟩
abbrev S4x64x1 : Shape := ⟨3, ![4, 64, 1]⟩
abbrev S4x1x1 : Shape := ⟨3, ![4, 1, 1]⟩
abbrev S136x1024 : Shape := ⟨2, ![136, 1024]⟩
abbrev S64x2048 : Shape := ⟨2, ![64, 2048]⟩
abbrev S1024x2048 : Shape := ⟨2, ![1024, 2048]⟩
abbrev S1x64x1 : Shape := ⟨3, ![1, 64, 1]⟩
abbrev S1x1x1 : Shape := ⟨3, ![1, 1, 1]⟩
abbrev S136x2048 : Shape := ⟨2, ![136, 2048]⟩
abbrev S1x2048 : Shape := ⟨2, ![1, 2048]⟩
abbrev S64 : Shape := ⟨1, ![64]⟩
abbrev S1 : Shape := ⟨1, ![1]⟩
abbrev S4x64 : Shape := ⟨2, ![4, 64]⟩
abbrev S4 : Shape := ⟨1, ![4]⟩

abbrev nBuf : Space → Nat
  | .hbm => 32
  | .vmem => 15
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192x8192, .i32⟩
  | .hbm, ⟨3, _⟩ => ⟨S64x8192, .f32⟩
  | .hbm, ⟨4, _⟩ => ⟨S64x8192, .bf16⟩
  | .hbm, ⟨5, _⟩ => ⟨S64x8192, .f32⟩
  | .hbm, ⟨6, _⟩ => ⟨S64x8192, .bf16⟩
  | .hbm, ⟨7, _⟩ => ⟨S64x8192, .f32⟩
  | .hbm, ⟨8, _⟩ => ⟨S64x8192, .f32⟩
  | .hbm, ⟨9, _⟩ => ⟨S_, .bf16⟩
  | .hbm, ⟨10, _⟩ => ⟨S8x8192, .bf16⟩
  | .hbm, ⟨11, _⟩ => ⟨S136x8192, .bf16⟩
  | .hbm, ⟨12, _⟩ => ⟨S4x64x1, .f32⟩
  | .hbm, ⟨13, _⟩ => ⟨S4x64x1, .f32⟩
  | .hbm, ⟨14, _⟩ => ⟨S4x1x1, .f32⟩
  | .hbm, ⟨15, _⟩ => ⟨S4x64, .f32⟩
  | .hbm, ⟨16, _⟩ => ⟨S_, .f32⟩
  | .hbm, ⟨17, _⟩ => ⟨S64, .f32⟩
  | .hbm, ⟨18, _⟩ => ⟨S4x64, .f32⟩
  | .hbm, ⟨19, _⟩ => ⟨S_, .f32⟩
  | .hbm, ⟨20, _⟩ => ⟨S64, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .local _ .vmem, ⟨0, _⟩ => ⟨S136x1024, .bf16⟩
  | .local _ .vmem, ⟨1, _⟩ => ⟨S136x1024, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1024x2048, .i32⟩
  | .local _ .vmem, ⟨7, _⟩ => ⟨S1024x2048, .i32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S1x64x1, .f32⟩
  | .local _ .vmem, ⟨12, _⟩ => ⟨S1x1x1, .f32⟩
  | .local _ .vmem, ⟨13, _⟩ => ⟨S1x1x1, .f32⟩
  | .local _ .vmem, ⟨14, _⟩ => ⟨S136x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S136x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  bcast_S_S8x8192 : S_.BroadcastsInDim S8x8192 (![] : Fin 0 → Fin S8x8192.rank)
  concatenates_S64x8192_S64x8192_S8x8192_S136x8192_d0 : Shape.Concatenates [S64x8192, S64x8192, S8x8192] S136x8192 0
  inb_S136x2048_S136x2048_0_0 : ∀ a, (![0, 0] : Fin 2 → Nat) a + S136x2048.size a ≤ S136x2048.size a
  h_S136x2048 : 0 < S136x2048.numel
  shapeCasts_S136x2048_S136x2048 : S136x2048.ShapeCasts S136x2048
  inb_S1024x2048_S1024x2048_0_0 : ∀ a, (![0, 0] : Fin 2 → Nat) a + S1024x2048.size a ≤ S1024x2048.size a
  h_S1024x2048 : 0 < S1024x2048.numel
  inb_S136x1024_S136x1024_0_0 : ∀ a, (![0, 0] : Fin 2 → Nat) a + S136x1024.size a ≤ S136x1024.size a
  h_S136x1024 : 0 < S136x1024.numel
  shapeCasts_S136x1024_S136x1024 : S136x1024.ShapeCasts S136x1024
  slices_S136x2048_o0_0_S64x2048 : S136x2048.Slices ![0, 0] S64x2048
  slices_S136x2048_o64_0_S64x2048 : S136x2048.Slices ![64, 0] S64x2048
  slices_S136x2048_o128_0_S1x2048 : S136x2048.Slices ![128, 0] S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S64x2048_S64 : S64x2048.Reduces [1] S64
  reduces_S1x2048_S1 : S1x2048.Reduces [1] S1
  shapeCasts_S64_S1x64x1 : S64.ShapeCasts S1x64x1
  inb_S1x64x1_S1x64x1_0_0_0 : ∀ a, (![0, 0, 0] : Fin 3 → Nat) a + S1x64x1.size a ≤ S1x64x1.size a
  h_S1x64x1 : 0 < S1x64x1.numel
  shapeCasts_S1_S1x1x1 : S1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S4x64x1_S4x64 : S4x64x1.ShapeCasts S4x64
  reducesTo_S4x64_S64_d0 : S4x64.ReducesTo [0] S64
  h_S_ : 0 < S_.numel
  shapeCasts_S4x1x1_S4 : S4x1x1.ShapeCasts S4
  reducesTo_S4_S_d0 : S4.ReducesTo [0] S_
  bcast_S_S64 : S_.BroadcastsInDim S64 (![] : Fin 0 → Fin S64.rank)
  dot_S136x1024_S1024x2048_S136x2048_1_0_0_1_n_n_wf : DotDims.WF S136x1024 S1024x2048 S136x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S136x1024.size a ≤ S136x8192.size a
  hwx0_0 : ∀ i : grid0.Coords, EltTy.bits .bf16 = 32 ∨ (Rect.block (s := S136x8192) S136x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x8192.size a
  hwx0_1 : ∀ i : grid0.Coords, EltTy.bits .f32 = 32 ∨ (Rect.block (s := S64x8192) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x8192.size a
  hwx0_2 : ∀ i : grid0.Coords, EltTy.bits .f32 = 32 ∨ (Rect.block (s := S64x8192) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .i32 = 32 ∨ (Rect.block (s := S8192x8192) S1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S4x64x1.size a
  hwx0_4 : ∀ i : grid0.Coords, EltTy.bits .f32 = 32 ∨ (Rect.block (s := S4x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S4x64x1.size a
  hwx0_5 : ∀ i : grid0.Coords, EltTy.bits .f32 = 32 ∨ (Rect.block (s := S4x64x1) S1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)

variable [Facts₀]

def dot_S136x1024_S1024x2048_S136x2048_1_0_0_1_n_n : DotDims S136x1024 S1024x2048 S136x2048 where
  lhsContracting := [1]
  rhsContracting := [0]
  lhsNonContracting := [0]
  rhsNonContracting := [1]
  lhsBatch := []
  rhsBatch := []
  wf := dot_S136x1024_S1024x2048_S136x2048_1_0_0_1_n_n_wf

abbrev win0_0 : Pipeline.Window sig grid0 :=
  Pipeline.Window.ofSpec (Memref.whole main_v7) S136x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S_ : Shape := ⟨0, ![]⟩
abbrev S64 : Shape := ⟨1, ![64]⟩

abbrev nBuf : Space → Nat
  | .hbm => 30
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192x8192, .i32⟩
  | .hbm, ⟨3, _⟩ => ⟨S64x8192, .f32⟩
  | .hbm, ⟨4, _⟩ => ⟨S64x8192, .f32⟩
  | .hbm, ⟨5, _⟩ => ⟨S64x8192, .f32⟩
  | .hbm, ⟨6, _⟩ => ⟨S64x8192, .f32⟩
  | .hbm, ⟨7, _⟩ => ⟨S8192x8192, .f32⟩
  | .hbm, ⟨8, _⟩ => ⟨S64x8192, .f32⟩
  | .hbm, ⟨9, _⟩ => ⟨S64x8192, .f32⟩
  | .hbm, ⟨10, _⟩ => ⟨S64x8192, .f32⟩
  | .hbm, ⟨11, _⟩ => ⟨S64x8192, .f32⟩
  | .hbm, ⟨12, _⟩ => ⟨S64x8192, .f32⟩
  | .hbm, ⟨13, _⟩ => ⟨S_, .f32⟩
  | .hbm, ⟨14, _⟩ => ⟨S64, .f32⟩
  | .hbm, ⟨15, _⟩ => ⟨S64x8192, .f32⟩
  | .hbm, ⟨16, _⟩ => ⟨S64x8192, .f32⟩
  | .hbm, ⟨17, _⟩ => ⟨S64x8192, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S64x8192_S64_d1 : S64x8192.ReducesTo [1] S64
  h_S_ : 0 < S_.numel
  reducesTo_S8192x8192_S_d0_1 : S8192x8192.ReducesTo [0, 1] S_
  bcast_S_S64 : S_.BroadcastsInDim S64 (![] : Fin 0 → Fin S64.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.K.Kit.lean ====
/-
  The frame of the kernel program around its one region, part one: what every later module of the frame shares.

  @main is nine host operations (cosines and sines of the two phase arrays, a row of ones, and their
  concatenation into the stacked left operand), the region, and seventeen host operations that fold the
  region's per-tile partial results. The region's grid is 4 x 8: the minor coordinate walks the eight
  1024-row tiles of the contraction axis, the major one the four 2048-column tiles of the mask. The body
  keeps a 136 x 2048 accumulator in scratch across the eight minor steps of a column tile: it clears it at
  minor step 0, adds one partial product at every step, and at minor step 7 reduces it into the three
  output blocks. So a point of the grid is in one of three cases, told apart by its position modulo 8.
-/
import proofs.«114634_j23270132810218_2_alg».proof.Proof.Gen.Kernel.Launch
import proofs.«114634_j23270132810218_2_alg».proof.Proof.Gen.Kernel.Skeleton
import proofs.«114634_j23270132810218_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of a core's buffers when the region is entered: the launch memory after the nine host
    operations that precede it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, the host suffix: it reduces to the region continued by the suffix. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The suffix touches only the region's arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the seven arrays the region's windows stage: each of its operations writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (unfetched, the block index has not moved since the last fetch), for any proof data whose array
    is the region-entry array and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run of @main to the region's post gives the
    frame claim: the two phase arrays are staged by no window and written by no host operation, and the mask is an
    input window's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 3).trans (((dats 0 c).arrAt_in 3 rfl _).trans ((hA c 3).trans (V_main_arg2 m c)))⟩) h

/-! ## The body's two branch conditions -/

/-- "This is the first of the eight minor steps": the body's first conditional, as the body computes it from the
    grid coordinates. -/
abbrev cond0_0 (i : grid0.Coords) : Prop := (Scalar.cmpi .ne (Scalar.extui (Scalar.cmpi .eq (BitVec.ofNat 32 (i 1).val) 0#32)) 0#32) = 1#1
/-- It holds exactly at the points whose position is 0 modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last of the eight minor steps": the body's second conditional. -/
abbrev cond0_1 (i : grid0.Coords) : Prop := k0_cond2 i = 1#1
/-- It holds exactly at the points whose position is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-! The three outputs are stored only at the last minor step: elsewhere they are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

/-- One staging buffer of each output window, through which its contents are stated (the choice does not matter). -/
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view
abbrev VO0_6 : View sig .tc .vmem S1x1x1 .f32 := (Memref.whole cc0_stg6_0 : Memref sig .tc .vmem S1x1x1 .f32).view
/-- Each window's current staging memref at point `t`, and that it is a whole buffer. -/
abbrev ms0_0 (t : Fin cfg0.N) : Memref sig .tc .vmem S136x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S136x2048 .f32 := Memref.whole cc0_scratch0
/-- The accumulator as a view. -/
abbrev VS0_0 : View sig .tc .vmem S136x2048 .f32 := scM0_0.view

/-- What the launch lends the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunFirst.lean ====
/-
  The body at the FIRST of the eight minor steps of a column tile (position 0 modulo 8): it clears the accumulator and
  adds the first partial product. The run is symbolic: on whole staging buffers holding the four input blocks, the
  three idle output buffers at any contents (handed back untouched) and the accumulator at any contents, the body
  runs without fault and leaves the accumulator with a list of stores written into it; that list is found by the run.
-/
import proofs.«114634_j23270132810218_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at a first minor step (latest first), with the proof that the
    body runs from the buffers described above to them. -/
noncomputable def kernelRun0_A (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) :
    { LS0 : List (View.Piece (Elt F) S136x2048 .f32) //
      ∀ (xi4 xi5 : Vec F S1x64x1 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, fun xi4 xi5 xi6 E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.K.RunMid.lean ====
/-
  The body at a MIDDLE minor step of a column tile (positions 1 to 6 modulo 8): it adds one partial product to the
  accumulator, which holds what the step before left. Nothing else is stored; the three output buffers are idle.
-/
import proofs.«114634_j23270132810218_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at a middle minor step, the accumulator starting at `xs0`, with the
    proof that the body runs to them. -/
noncomputable def kernelRun0_B (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) :
    { LS0 : List (View.Piece (Elt F) S136x2048 .f32) //
      ∀ (xi4 xi5 : Vec F S1x64x1 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, fun xi4 xi5 xi6 E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Fr

end
-- ==== Proof.K.RunLast.lean ====
/-
  The body at the LAST minor step of a column tile (position 7 modulo 8): it adds the last partial product and then
  reduces the finished accumulator, against the two blocks of the second phase array's cosines and sines, into the
  three output blocks. The stores it leaves in the accumulator and in each output buffer are found by the run.
-/
import proofs.«114634_j23270132810218_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the three output buffers and in the accumulator at a last minor step, the
    accumulator starting at `xs0`, with the proof that the body runs to them. -/
noncomputable def kernelRun0_C (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    Σ' (L4 : List (View.Piece (Elt F) S1x64x1 .f32)) (L5 : List (View.Piece (Elt F) S1x64x1 .f32)) (L6 : List (View.Piece (Elt F) S1x1x1 .f32)), { LS0 : List (View.Piece (Elt F) S136x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, ?_, ?_, ?_, fun E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS0

end Cert.Kernel.Fr

end
-- ==== Proof.K.Frame.lean ====
/-
  The frame of the kernel program around its one region, last part.

  What the accumulator and the three output buffers hold after the body at each of the 32 points is a recursion on
  the point: at a first minor step (position 0 modulo 8) the accumulator is what that step's run leaves from any
  start; at every other step it is what that step's run leaves from what the point before left; at a last minor
  step (position 7 modulo 8) the three output buffers are what the run leaves there, and at every other point they
  are idle. The region's invariant carries the accumulator at exactly these contents from point to point. With the
  proof data stated so, the body obligation is a case split on the position modulo 8, each leaf one of the three
  runs; the library's launch theorem for a region followed by host operations then runs @main, and the frame claim
  is read off its post.
-/
import proofs.«114634_j23270132810218_2_alg».proof.Proof.K.RunFirst
import proofs.«114634_j23270132810218_2_alg».proof.Proof.K.RunMid
import proofs.«114634_j23270132810218_2_alg».proof.Proof.K.RunLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first minor step the stores into the accumulator tile it, so they cover it. -/
theorem scover0_A_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) (y : S136x2048.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S136x2048.size (by sl_kernel_rfl) y

/-- What a first minor step leaves in the accumulator: its stores read back. -/
def sout0_A_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) : Vec F S136x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- At a middle minor step the store into the accumulator covers it. -/
theorem scover0_B_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) (y : S136x2048.Idx) :
    ∃ pc ∈ (kernelRun0_B c i arg2 harg2 arg3 harg3 arg4 harg4 arg5 harg5 arg6 harg6 arg7 harg7 arg8 harg8 arg9 harg9 hc0 hc1 x0 x1 x2 x3 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0).1 S136x2048.size (by sl_kernel_rfl) y

/-- What a middle minor step leaves in the accumulator. -/
def sout0_B_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) : Vec F S136x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0).1)

/-- At a last minor step the store into the first output's buffer covers it. -/
theorem cover0_C_4 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x64x1.Idx) :
    ∃ pc ∈ (kernelRun0_C c i arg2 harg2 arg3 harg3 arg4 harg4 arg5 harg5 arg6 harg6 arg7 harg7 arg8 harg8 arg9 harg9 hc0 hc1 x0 x1 x2 x3 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).1 S1x64x1.size (by sl_kernel_rfl) y

/-- What a last minor step leaves in the first output's buffer. -/
def out0_C_4 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0).1)

/-- The same for the second output. -/
theorem cover0_C_5 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x64x1.Idx) :
    ∃ pc ∈ (kernelRun0_C c i arg2 harg2 arg3 harg3 arg4 harg4 arg5 harg5 arg6 harg6 arg7 harg7 arg8 harg8 arg9 harg9 hc0 hc1 x0 x1 x2 x3 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.1 S1x64x1.size (by sl_kernel_rfl) y

/-- What a last minor step leaves in the second output's buffer. -/
def out0_C_5 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0).2.1)

/-- The same for the third output. -/
theorem cover0_C_6 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x1x1.Idx) :
    ∃ pc ∈ (kernelRun0_C c i arg2 harg2 arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.2.1 S1x1x1.size (by sl_kernel_rfl) y

/-- What a last minor step leaves in the third output's buffer. -/
def out0_C_6 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x1x1 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 xs0).2.2.1)

/-- At a last minor step the store into the accumulator covers it. -/
theorem scover0_C_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S136x2048.Idx) :
    ∃ pc ∈ (kernelRun0_C c i arg2 harg2 arg3 harg3 arg4 harg4 arg5 harg5 arg6 harg6 arg7 harg7 arg8 harg8 arg9 harg9 hc0 hc1 x0 x1 x2 x3 xs0).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.2.2.1 S136x2048.size (by sl_kernel_rfl) y

/-- What a last minor step leaves in the accumulator. -/
def sout0_C_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S136x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0).2.2.2.1)

/-- At a point where an output window is idle nothing consults its contents: a fixed placeholder. -/
def idle0_4 : Vec F S1x64x1 .f32 := VO0_4.read (Elt F) VO0_4.junk
def idle0_5 : Vec F S1x64x1 .f32 := VO0_5.read (Elt F) VO0_5.junk
def idle0_6 : Vec F S1x1x1 .f32 := VO0_6.read (Elt F) VO0_6.junk

/-! ## What the buffers hold after each point -/

/-- After the body at position `n`: the three output buffers, then the accumulator. -/
def outsAt0 (c : Dev nD) : (n : ℕ) → n < cfg0.N → Vec F S1x64x1 .f32 × Vec F S1x64x1 .f32 × Vec F S1x1x1 .f32 × Vec F S136x2048 .f32
  | 0, hn => (idle0_4, idle0_5, idle0_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (idle0_4, idle0_5, idle0_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)
      else
        (idle0_4, idle0_5, idle0_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)

/-- At a first minor step. -/
theorem outsAt0_A (c : Dev nD) (t : Fin cfg0.N) (h0 : t.val % 8 = 0) (h1 : ¬t.val % 8 = 7) :
    outsAt0 m c t.val t.isLt = (idle0_4, idle0_5, idle0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle minor step, over what the point before left in the accumulator. -/
theorem outsAt0_B (c : Dev nD) (t : Fin cfg0.N) (h0 : ¬t.val % 8 = 0) (h1 : ¬t.val % 8 = 7) :
    outsAt0 m c t.val t.isLt = (idle0_4, idle0_5, idle0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last minor step, over what the point before left in the accumulator. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch lends (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

/-- The arrays as the region finds them; after the body at a point each input's buffer at its block and each
    output's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position modulo 8 says which of the three
    cases the point is in; the invariant hands the body the accumulator at what the point before left (at anything
    at the very first point) and takes it back at this point's contents, because the case's stores cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 8 = 7
    · have hc0 : ¬cond0_0 (grid0.coords t) := fun h => h0 ((hcond0_0 t).mp h)
      have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [show (dats m 0 c).leavesExact 6 t = owns (c : Thread nD τ) (ms0_6 t) fullShare ((dats m 0 c).after 6 t) from by
        unfold Dat.leavesExact; rw [liveAt0_6 t hc1], after0_6]
      rw [outsAt0_C m c t h0 h1]
      unfold out0_C_4 out0_C_5 out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        iintro ⟨H0, H1, H2, H3, ⟨%e4, H4⟩, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, forgetting what the accumulator holds. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, and every final state has
    each of the region's arrays at what the proof data says was written back and every other buffer as the host
    suffix leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: @main runs to the end without fault and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Kit.lean ====
/-
  The frame of the kernel program around its one region, part one: what every later module of the frame shares.

  @main is nine host operations (cosines and sines of the two phase arrays, a row of ones, and their
  concatenation into the stacked left operand), the region, and seventeen host operations that fold the
  region's per-tile partial results. The region's grid is 4 x 8: the minor coordinate walks the eight
  1024-row tiles of the contraction axis, the major one the four 2048-column tiles of the mask. The body
  keeps a 136 x 2048 accumulator in scratch across the eight minor steps of a column tile: it clears it at
  minor step 0, adds one partial product at every step, and at minor step 7 reduces it into the three
  output blocks. So a point of the grid is in one of three cases, told apart by its position modulo 8.
-/
import proofs.«114634_j23270132810218_2_alg».proof.Proof.Gen.KernelIdeal.Launch
import proofs.«114634_j23270132810218_2_alg».proof.Proof.Gen.KernelIdeal.Skeleton
import proofs.«114634_j23270132810218_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents of a core's buffers when the region is entered: the launch memory after the nine host
    operations that precede it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, the host suffix: it reduces to the region continued by the suffix. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The suffix touches only the region's arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the seven arrays the region's windows stage: each of its operations writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (unfetched, the block index has not moved since the last fetch), for any proof data whose array
    is the region-entry array and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run of @main to the region's post gives the
    frame claim: the two phase arrays are staged by no window and written by no host operation, and the mask is an
    input window's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 3).trans (((dats 0 c).arrAt_in 3 rfl _).trans ((hA c 3).trans (V_main_arg2 m c)))⟩) h

/-! ## The body's two branch conditions -/

/-- "This is the first of the eight minor steps": the body's first conditional, as the body computes it from the
    grid coordinates. -/
abbrev cond0_0 (i : grid0.Coords) : Prop := (Scalar.cmpi .ne (Scalar.extui (Scalar.cmpi .eq (BitVec.ofNat 32 (i 1).val) 0#32)) 0#32) = 1#1
/-- It holds exactly at the points whose position is 0 modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last of the eight minor steps": the body's second conditional. -/
abbrev cond0_1 (i : grid0.Coords) : Prop := k0_cond2 i = 1#1
/-- It holds exactly at the points whose position is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-! The three outputs are stored only at the last minor step: elsewhere they are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

/-- One staging buffer of each output window, through which its contents are stated (the choice does not matter). -/
abbrev VO0_4 : View sig .tc .vmem S1x64x1 .f32 := (Memref.whole cc0_stg4_0 : Memref sig .tc .vmem S1x64x1 .f32).view
abbrev VO0_5 : View sig .tc .vmem S1x64x1 .f32 := (Memref.whole cc0_stg5_0 : Memref sig .tc .vmem S1x64x1 .f32).view
abbrev VO0_6 : View sig .tc .vmem S1x1x1 .f32 := (Memref.whole cc0_stg6_0 : Memref sig .tc .vmem S1x1x1 .f32).view
/-- Each window's current staging memref at point `t`, and that it is a whole buffer. -/
abbrev ms0_0 (t : Fin cfg0.N) : Memref sig .tc .vmem S136x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S136x2048 .f32 := Memref.whole cc0_scratch0
/-- The accumulator as a view. -/
abbrev VS0_0 : View sig .tc .vmem S136x2048 .f32 := scM0_0.view

/-- What the launch lends the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunFirst.lean ====
/-
  The body at the FIRST of the eight minor steps of a column tile (position 0 modulo 8): it clears the accumulator and
  adds the first partial product. The run is symbolic: on whole staging buffers holding the four input blocks, the
  three idle output buffers at any contents (handed back untouched) and the accumulator at any contents, the body
  runs without fault and leaves the accumulator with a list of stores written into it; that list is found by the run.
-/
import proofs.«114634_j23270132810218_2_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at a first minor step (latest first), with the proof that the
    body runs from the buffers described above to them. -/
noncomputable def kernelRun0_A (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) :
    { LS0 : List (View.Piece (Elt F) S136x2048 .f32) //
      ∀ (xi4 xi5 : Vec F S1x64x1 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, fun xi4 xi5 xi6 E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KI.RunMid.lean ====
/-
  The body at a MIDDLE minor step of a column tile (positions 1 to 6 modulo 8): it adds one partial product to the
  accumulator, which holds what the step before left. Nothing else is stored; the three output buffers are idle.
-/
import proofs.«114634_j23270132810218_2_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at a middle minor step, the accumulator starting at `xs0`, with the
    proof that the body runs to them. -/
noncomputable def kernelRun0_B (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) :
    { LS0 : List (View.Piece (Elt F) S136x2048 .f32) //
      ∀ (xi4 xi5 : Vec F S1x64x1 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, fun xi4 xi5 xi6 E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Fr

end
-- ==== Proof.KI.RunLast.lean ====
/-
  The body at the LAST minor step of a column tile (position 7 modulo 8): it adds the last partial product and then
  reduces the finished accumulator, against the two blocks of the second phase array's cosines and sines, into the
  three output blocks. The stores it leaves in the accumulator and in each output buffer are found by the run.
-/
import proofs.«114634_j23270132810218_2_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the three output buffers and in the accumulator at a last minor step, the
    accumulator starting at `xs0`, with the proof that the body runs to them. -/
noncomputable def kernelRun0_C (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    Σ' (L4 : List (View.Piece (Elt F) S1x64x1 .f32)) (L5 : List (View.Piece (Elt F) S1x64x1 .f32)) (L6 : List (View.Piece (Elt F) S1x1x1 .f32)), { LS0 : List (View.Piece (Elt F) S136x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__plv_kernel i arg2 harg2 arg3 harg3 arg4 harg4 arg5 harg5 arg6 harg6 arg7 harg7 arg8 harg8 arg9 harg9) K } := by
  refine ⟨?_, ?_, ?_, ?_, fun E K => ?run⟩
  case run =>
    simp only [cc0__plv_kernel_eq_skeleton]; unfold cc0__plv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS0

end Cert.KernelIdeal.Fr

end
-- ==== Proof.KI.Frame.lean ====
/-
  The frame of the kernel program around its one region, last part.

  What the accumulator and the three output buffers hold after the body at each of the 32 points is a recursion on
  the point: at a first minor step (position 0 modulo 8) the accumulator is what that step's run leaves from any
  start; at every other step it is what that step's run leaves from what the point before left; at a last minor
  step (position 7 modulo 8) the three output buffers are what the run leaves there, and at every other point they
  are idle. The region's invariant carries the accumulator at exactly these contents from point to point. With the
  proof data stated so, the body obligation is a case split on the position modulo 8, each leaf one of the three
  runs; the library's launch theorem for a region followed by host operations then runs @main, and the frame claim
  is read off its post.
-/
import proofs.«114634_j23270132810218_2_alg».proof.Proof.KI.RunFirst
import proofs.«114634_j23270132810218_2_alg».proof.Proof.KI.RunMid
import proofs.«114634_j23270132810218_2_alg».proof.Proof.KI.RunLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first minor step the stores into the accumulator tile it, so they cover it. -/
theorem scover0_A_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) (y : S136x2048.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S136x2048.size (by sl_kernel_rfl) y

/-- What a first minor step leaves in the accumulator: its stores read back. -/
def sout0_A_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) : Vec F S136x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- At a middle minor step the store into the accumulator covers it. -/
theorem scover0_B_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) (y : S136x2048.Idx) :
    ∃ pc ∈ (kernelRun0_B c i arg2 harg2 arg3 harg3 arg4 harg4 arg5 harg5 arg6 harg6 arg7 harg7 arg8 harg8 arg9 harg9 hc0 hc1 x0 x1 x2 x3 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0).1 S136x2048.size (by sl_kernel_rfl) y

/-- What a middle minor step leaves in the accumulator. -/
def sout0_B_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) : Vec F S136x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0).1)

/-- At a last minor step the store into the first output's buffer covers it. -/
theorem cover0_C_4 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x64x1.Idx) :
    ∃ pc ∈ (kernelRun0_C c i arg2 harg2 arg3 harg3 arg4 harg4 arg5 harg5 arg6 harg6 arg7 harg7 arg8 harg8 arg9 harg9 hc0 hc1 x0 x1 x2 x3 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).1 S1x64x1.size (by sl_kernel_rfl) y

/-- What a last minor step leaves in the first output's buffer. -/
def out0_C_4 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x64x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0).1)

/-- The same for the second output. -/
theorem cover0_C_5 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x64x1.Idx) :
    ∃ pc ∈ (kernelRun0_C c i arg2 harg2 arg3 harg3 arg4 harg4 arg5 harg5 arg6 harg6 arg7 harg7 arg8 harg8 arg9 harg9 hc0 hc1 x0 x1 x2 x3 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.1 S1x64x1.size (by sl_kernel_rfl) y

/-- What a last minor step leaves in the second output's buffer. -/
def out0_C_5 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x64x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0).2.1)

/-- The same for the third output. -/
theorem cover0_C_6 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S1x1x1.Idx) :
    ∃ pc ∈ (kernelRun0_C c i arg2 harg2 arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.2.1 S1x1x1.size (by sl_kernel_rfl) y

/-- What a last minor step leaves in the third output's buffer. -/
def out0_C_6 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S1x1x1 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 xs0).2.2.1)

/-- At a last minor step the store into the accumulator covers it. -/
theorem scover0_C_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) (y : S136x2048.Idx) :
    ∃ pc ∈ (kernelRun0_C c i arg2 harg2 arg3 harg3 arg4 harg4 arg5 harg5 arg6 harg6 arg7 harg7 arg8 harg8 arg9 harg9 hc0 hc1 x0 x1 x2 x3 xs0).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0).2.2.2.1 S136x2048.size (by sl_kernel_rfl) y

/-- What a last minor step leaves in the accumulator. -/
def sout0_C_0 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) : Vec F S136x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0).2.2.2.1)

/-- At a point where an output window is idle nothing consults its contents: a fixed placeholder. -/
def idle0_4 : Vec F S1x64x1 .f32 := VO0_4.read (Elt F) VO0_4.junk
def idle0_5 : Vec F S1x64x1 .f32 := VO0_5.read (Elt F) VO0_5.junk
def idle0_6 : Vec F S1x1x1 .f32 := VO0_6.read (Elt F) VO0_6.junk

/-! ## What the buffers hold after each point -/

/-- After the body at position `n`: the three output buffers, then the accumulator. -/
def outsAt0 (c : Dev nD) : (n : ℕ) → n < cfg0.N → Vec F S1x64x1 .f32 × Vec F S1x64x1 .f32 × Vec F S1x1x1 .f32 × Vec F S136x2048 .f32
  | 0, hn => (idle0_4, idle0_5, idle0_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (idle0_4, idle0_5, idle0_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)
      else
        (idle0_4, idle0_5, idle0_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)

/-- At a first minor step. -/
theorem outsAt0_A (c : Dev nD) (t : Fin cfg0.N) (h0 : t.val % 8 = 0) (h1 : ¬t.val % 8 = 7) :
    outsAt0 m c t.val t.isLt = (idle0_4, idle0_5, idle0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle minor step, over what the point before left in the accumulator. -/
theorem outsAt0_B (c : Dev nD) (t : Fin cfg0.N) (h0 : ¬t.val % 8 = 0) (h1 : ¬t.val % 8 = 7) :
    outsAt0 m c t.val t.isLt = (idle0_4, idle0_5, idle0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last minor step, over what the point before left in the accumulator. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch lends (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The proof data -/

/-- The arrays as the region finds them; after the body at a point each input's buffer at its block and each
    output's at `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position modulo 8 says which of the three
    cases the point is in; the invariant hands the body the accumulator at what the point before left (at anything
    at the very first point) and takes it back at this point's contents, because the case's stores cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 8 = 7
    · have hc0 : ¬cond0_0 (grid0.coords t) := fun h => h0 ((hcond0_0 t).mp h)
      have hc1 : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [show (dats m 0 c).leavesExact 6 t = owns (c : Thread nD τ) (ms0_6 t) fullShare ((dats m 0 c).after 6 t) from by
        unfold Dat.leavesExact; rw [liveAt0_6 t hc1], after0_6]
      rw [outsAt0_C m c t h0 h1]
      unfold out0_C_4 out0_C_5 out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        iintro ⟨H0, H1, H2, H3, ⟨%e4, H4⟩, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back, forgetting what the accumulator holds. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, and every final state has
    each of the region's arrays at what the proof data says was written back and every other buffer as the host
    suffix leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: @main runs to the end without fault and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.Pieces.lean ====
/-
  What each of the three cases of the body leaves behind, as values. The stores a run found are read back here:
  every store covers its whole buffer from offset zero, and every load reads a whole buffer, so a buffer ends at
  the last payload stored into it, taken at the buffers' contents. At a first minor step the accumulator ends at
  "zeros plus the first partial product"; at any other step at "what it held plus this step's partial product";
  at a last minor step the three outputs end at the three reductions of that finished accumulator.
-/
import proofs.«114634_j23270132810218_2_alg».proof.Proof.KI.Frame
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- First minor step: the accumulator ends at the cleared block plus the partial product of the two input blocks. -/
theorem sout_A (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : cond0_0 i) (hc1 : ¬cond0_1 i)
    (x0 : Vec F S136x1024 .bf16) (x1 x2 : Vec F S64x2048 .f32) (x3 : Vec F S1024x2048 .i32) :
    sout0_A_0 c i arg2 harg2 arg3 harg3 arg4 harg4 arg5 harg5 arg6 harg6 arg7 harg7 arg8 harg8 arg9 harg9 hc0 hc1 x0 x1 x2 x3 = k0_pay2 x3 (k0_pay1 (F := F)) x0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S136x2048) hz2, View.readCov_unit_zero (S := S136x2048) _ hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

/-- Middle minor step: the accumulator ends at what it held plus the partial product. -/
theorem sout_B (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : ¬cond0_1 i)
    (x0 : Vec F S136x1024 .bf16) (x1 x2 : Vec F S64x2048 .f32) (x3 : Vec F S1024x2048 .i32) (xs0 : Vec F S136x2048 .f32) :
    sout0_B_0 c i arg2 harg2 arg3 harg3 arg4 harg4 arg5 harg5 arg6 harg6 arg7 harg7 arg8 harg8 arg9 harg9 hc0 hc1 x0 x1 x2 x3 xs0 = k0_pay2 x3 xs0 x0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

/-- Last minor step: the accumulator likewise. -/
theorem sout_C (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    sout0_C_0 c i arg2 harg2 arg3 harg3 arg4 harg4 arg5 harg5 arg6 harg6 arg7 harg7 arg8 harg8 arg9 harg9 hc0 hc1 x0 x1 x2 x3 xs0 = k0_pay2 x3 xs0 x0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

/-- Last minor step: the first output's buffer ends at the first reduction of the finished accumulator. -/
theorem out_C_4 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    out0_C_4 c i arg2 harg2 arg3 harg3 arg4 harg4 arg5 harg5 arg6 harg6 arg7 harg7 arg8 harg8 arg9 harg9 hc0 hc1 x0 x1 x2 x3 xs0 = k0_pay7 (k0_pay2 x3 xs0 x0) x1 x2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz3, View.readCov_unit_zero (S := S136x2048) _ hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

/-- The second output's at the second reduction. -/
theorem out_C_5 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    out0_C_5 c i arg2 harg2 arg3 harg3 arg4 harg4 arg5 harg5 arg6 harg6 arg7 harg7 arg8 harg8 arg9 harg9 hc0 hc1 x0 x1 x2 x3 xs0 = k0_pay8 (k0_pay2 x3 xs0 x0) x1 x2 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz3, View.readCov_unit_zero (S := S136x2048) _ hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

/-- The third output's at the sum of the accumulator's row of column counts. -/
theorem out_C_6 (c : Dev nD) (i : grid0.Coords) (arg2 : Memref sig .tc .vmem S136x1024 .bf16) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1024x2048 .i32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x1x1 .f32) (harg8 : arg8.IsWhole) (arg9 : Memref sig .tc .vmem S136x2048 .f32) (harg9 : arg9.IsWhole) (hc0 : ¬cond0_0 i) (hc1 : cond0_1 i)
    (x0 : Vec F S136x1024 .bf16) (x1 x2 : Vec F S64x2048 .f32) (x3 : Vec F S1024x2048 .i32) (xs0 : Vec F S136x2048 .f32) :
    out0_C_6 c i arg2 harg2 arg3 harg3 arg4 harg4 arg5 harg5 arg6 harg6 arg7 harg7 arg8 harg8 arg9 harg9 hc0 hc1 x0 x1 x2 x3 xs0 = k0_pay9 (k0_pay2 x3 xs0 x0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz3, View.readCov_unit_zero (S := S136x2048) _ hz2]
  simp only [View.readAt_eq_ld, harg2.read_unread, harg3.read_unread, harg4.read_unread, harg5.read_unread, harg9.read_unread, View.ld_unit_zero (S := S1024x2048) hz2, View.ld_unit_zero (S := S136x2048) hz2, View.ld_unit_zero (S := S136x1024) hz2, View.ld_unit_zero (S := S64x2048) hz2]

end Cert.KernelIdeal.Val

end
-- ==== Proof.KI.BlockReads.lean ====
/-
  The four input windows' blocks read at an index.

  The grid is 4 x 8 and point `t` has major coordinate `t / 8` (the 2048-column tile of the mask) and minor
  coordinate `t % 8` (the 1024-row tile of the contraction axis). Window 0 cuts the stacked left operand into
  [136, 1024] blocks along its columns by the minor coordinate; windows 1 and 2 cut the cosine and sine arrays of
  the second input into [64, 2048] blocks along their columns by the major coordinate; window 3 cuts the mask into
  [1024, 2048] blocks by (minor, major). A block at an index is its array at block index x block size + the
  coordinate inside the block, axis by axis.
-/
import proofs.«114634_j23270132810218_2_alg».proof.Proof.KI.Kit
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.TcCoe
  Idealize.ShloMosaic.ValueIdx Idealize.SL.Sem

variable {F : FTy → Type} [FloatOps F]
variable (m : (ℓ : Loc nD τ sig) → Buf (Elt F) ℓ)

/-- A point's position is below 32. -/
theorem pt_lt (t : Fin cfg0.N) : t.val < 32 := lt_of_lt_of_eq t.isLt N_0

/-- Row `k` of the row tile a point works on is below 8192. -/
theorem row_lt (t : Fin cfg0.N) (k : Fin 1024) : t.val % 8 * 1024 + k.val < 8192 := by
  have := k.isLt; omega

/-- Column `j` of the column tile a point works on is below 8192. -/
theorem col_lt (t : Fin cfg0.N) (j : Fin 2048) : t.val / 8 * 2048 + j.val < 8192 := by
  have := j.isLt; have := pt_lt t; omega

/-- The block indices of the four input windows at every point. -/
theorem index0_0 : ∀ t : Fin cfg0.N, win0_0.index t 0 = 0 ∧ win0_0.index t 1 = t.val % 8 :=
  (by decide +kernel : ∀ t : Fin grid0.N, win0_0.index t 0 = 0 ∧ win0_0.index t 1 = t.val % 8)
theorem index0_1 : ∀ t : Fin cfg0.N, win0_1.index t 0 = 0 ∧ win0_1.index t 1 = t.val / 8 :=
  (by decide +kernel : ∀ t : Fin grid0.N, win0_1.index t 0 = 0 ∧ win0_1.index t 1 = t.val / 8)
theorem index0_2 : ∀ t : Fin cfg0.N, win0_2.index t 0 = 0 ∧ win0_2.index t 1 = t.val / 8 :=
  (by decide +kernel : ∀ t : Fin grid0.N, win0_2.index t 0 = 0 ∧ win0_2.index t 1 = t.val / 8)
theorem index0_3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

/-- The stacked left operand's block at a point: all 136 rows, the columns of the point's row tile. -/
theorem iblk0_apply (c : Dev nD) (t : Fin cfg0.N) (r : Fin 136) (k : Fin 1024) :
    (iblk m c 0 t : Vec F S136x1024 .bf16) (ix2 r k)
      = V m c main_v7 (ix2 r ⟨t.val % 8 * 1024 + k.val, row_lt t k⟩) := by
  unfold iblk
  rw [View.read_apply]
  show V m c main_v7 _ = V m c main_v7 _
  congr 1
  funext a
  apply Fin.ext
  match a with
  | ⟨0, _⟩ => show win0_0.index t 0 * 136 + 1 * r.val = r.val; rw [(index0_0 t).1]; omega
  | ⟨1, _⟩ => show win0_0.index t 1 * 1024 + 1 * k.val = t.val % 8 * 1024 + k.val; rw [(index0_0 t).2]; omega

/-- The second input's cosine block at a point: all 64 rows, the columns of the point's column tile. -/
theorem iblk1_apply (c : Dev nD) (t : Fin cfg0.N) (b : Fin 64) (j : Fin 2048) :
    (iblk m c 1 t : Vec F S64x2048 .f32) (ix2 b j)
      = V m c main_v4 (ix2 b ⟨t.val / 8 * 2048 + j.val, col_lt t j⟩) := by
  unfold iblk
  rw [View.read_apply]
  show V m c main_v4 _ = V m c main_v4 _
  congr 1
  funext a
  apply Fin.ext
  match a with
  | ⟨0, _⟩ => show win0_1.index t 0 * 64 + 1 * b.val = b.val; rw [(index0_1 t).1]; omega
  | ⟨1, _⟩ => show win0_1.index t 1 * 2048 + 1 * j.val = t.val / 8 * 2048 + j.val; rw [(index0_1 t).2]; omega

/-- The second input's sine block at a point. -/
theorem iblk2_apply (c : Dev nD) (t : Fin cfg0.N) (b : Fin 64) (j : Fin 2048) :
    (iblk m c 2 t : Vec F S64x2048 .f32) (ix2 b j)
      = V m c main_v5 (ix2 b ⟨t.val / 8 * 2048 + j.val, col_lt t j⟩) := by
  unfold iblk
  rw [View.read_apply]
  show V m c main_v5 _ = V m c main_v5 _
  congr 1
  funext a
  apply Fin.ext
  match a with
  | ⟨0, _⟩ => show win0_2.index t 0 * 64 + 1 * b.val = b.val; rw [(index0_2 t).1]; omega
  | ⟨1, _⟩ => show win0_2.index t 1 * 2048 + 1 * j.val = t.val / 8 * 2048 + j.val; rw [(index0_2 t).2]; omega

/-- The mask's block at a point: the rows of the point's row tile, the columns of its column tile. -/
theorem iblk3_apply (c : Dev nD) (t : Fin cfg0.N) (k : Fin 1024) (j : Fin 2048) :
    (iblk m c 3 t : IVec S1024x2048 32) (ix2 k j)
      = V m c main_arg2 (ix2 ⟨t.val % 8 * 1024 + k.val, row_lt t k⟩ ⟨t.val / 8 * 2048 + j.val, col_lt t j⟩) := by
  unfold iblk
  rw [View.read_apply]
  show V m c main_arg2 _ = V m c main_arg2 _
  congr 1
  funext a
  apply Fin.ext
  match a with
  | ⟨0, _⟩ => show win0_3.index t 0 * 1024 + 1 * k.val = t.val % 8 * 1024 + k.val; rw [(index0_3 t).1]; omega
  | ⟨1, _⟩ => show win0_3.index t 1 * 2048 + 1 * j.val = t.val / 8 * 2048 + j.val; rw [(index0_3 t).2]; omega

end Cert.KernelIdeal.Val

end
-- ==== Proof.PayAcc.lean ====
/-
  The two accumulator payloads read at an index on the extended reals.

  The first stores the zero word everywhere; the second adds to the scratch block the product of the
  [136, 1024] block with the integer block read signed, exactly: entry (r, j) is
  scratch (r, j) + ∑ k, lhs (r, k) * mask (k, j). A finite sum on the extended reals is a sum in a commutative
  monoid; no finiteness is used.
-/
import proofs.«114634_j23270132810218_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The zero payload reads the extended real 0 at every entry. -/
theorem pay1_apply (r : Fin 136) (j : Fin 2048) : k0_pay1 (F := Ideal) (ix2 r j) = 0 := by
  unfold k0_pay1
  rw [shapeCast_self]
  exact Ideal.ofBits_zero_f32

/-! The operand indices of the block product at an output index and a contraction index, coordinate by coordinate. -/

theorem dot_lhs_0 (i : S136x2048.Idx) (q : dot_S136x1024_S1024x2048_S136x2048_1_0_0_1_n_n.contr.Idx) :
    (dot_S136x1024_S1024x2048_S136x2048_1_0_0_1_n_n.lhsIdx i q 0).val = (i 0).val := by
  unfold DotDims.lhsIdx
  rw [dif_neg (show ¬(0 : Fin S136x1024.rank) ∈ dot_S136x1024_S1024x2048_S136x2048_1_0_0_1_n_n.lhsBatch by decide),
    dif_pos (show (0 : Fin S136x1024.rank) ∈ dot_S136x1024_S1024x2048_S136x2048_1_0_0_1_n_n.lhsNonContracting by decide)]
  rfl
theorem dot_lhs_1 (i : S136x2048.Idx) (q : dot_S136x1024_S1024x2048_S136x2048_1_0_0_1_n_n.contr.Idx) :
    (dot_S136x1024_S1024x2048_S136x2048_1_0_0_1_n_n.lhsIdx i q 1).val = (q ⟨0, by decide⟩).val :=
  dot_S136x1024_S1024x2048_S136x2048_1_0_0_1_n_n.lhsIdx_val_of_single rfl i q
theorem dot_rhs_0 (i : S136x2048.Idx) (q : dot_S136x1024_S1024x2048_S136x2048_1_0_0_1_n_n.contr.Idx) :
    (dot_S136x1024_S1024x2048_S136x2048_1_0_0_1_n_n.rhsIdx i q 0).val = (q ⟨0, by decide⟩).val :=
  dot_S136x1024_S1024x2048_S136x2048_1_0_0_1_n_n.rhsIdx_val_of_single rfl i q
theorem dot_rhs_1 (i : S136x2048.Idx) (q : dot_S136x1024_S1024x2048_S136x2048_1_0_0_1_n_n.contr.Idx) :
    (dot_S136x1024_S1024x2048_S136x2048_1_0_0_1_n_n.rhsIdx i q 1).val = (i 1).val := by
  unfold DotDims.rhsIdx
  rw [dif_neg (show ¬(1 : Fin S1024x2048.rank) ∈ dot_S136x1024_S1024x2048_S136x2048_1_0_0_1_n_n.rhsBatch by decide),
    dif_pos (show (1 : Fin S1024x2048.rank) ∈ dot_S136x1024_S1024x2048_S136x2048_1_0_0_1_n_n.rhsNonContracting by decide)]
  rfl

/-- The contraction index of the block product is its one coordinate: the left operand's index at output (r, j). -/
theorem dot_lhs (r : Fin 136) (j : Fin 2048) (k : Fin 1024) :
    dot_S136x1024_S1024x2048_S136x2048_1_0_0_1_n_n.lhsIdx (ix2 r j)
        ((contrEquiv1 dot_S136x1024_S1024x2048_S136x2048_1_0_0_1_n_n 1024 rfl rfl).symm k) = ix2 r k := by
  have hk := contrEquiv1_symm_val dot_S136x1024_S1024x2048_S136x2048_1_0_0_1_n_n 1024 rfl rfl k
  exact funext fun a => Fin.ext (by
    match a with
    | ⟨0, _⟩ => exact dot_lhs_0 _ _
    | ⟨1, _⟩ => exact (dot_lhs_1 _ _).trans hk)

/-- The right operand's index at output (r, j). -/
theorem dot_rhs (r : Fin 136) (j : Fin 2048) (k : Fin 1024) :
    dot_S136x1024_S1024x2048_S136x2048_1_0_0_1_n_n.rhsIdx (ix2 r j)
        ((contrEquiv1 dot_S136x1024_S1024x2048_S136x2048_1_0_0_1_n_n 1024 rfl rfl).symm k) = ix2 k j := by
  have hk := contrEquiv1_symm_val dot_S136x1024_S1024x2048_S136x2048_1_0_0_1_n_n 1024 rfl rfl k
  exact funext fun a => Fin.ext (by
    match a with
    | ⟨0, _⟩ => exact (dot_rhs_0 _ _).trans hk
    | ⟨1, _⟩ => exact dot_rhs_1 _ _)

/-- The block product into the zero accumulator, at entry (r, j): the row-by-column sum. -/
theorem matmul_zero_apply (x : FVec Ideal S136x1024 .bf16) (w : FVec Ideal S1024x2048 .bf16) (r : Fin 136) (j : Fin 2048) :
    FloatOps.matmul dot_S136x1024_S1024x2048_S136x2048_1_0_0_1_n_n none x w
        (constant (F := Ideal) S136x2048 .f32 0x00000000#32) (ix2 r j)
      = ∑ k : Fin 1024, x (ix2 r k) * w (ix2 k j) := by
  rw [Ideal.matmul_constant_zero_apply,
    ← Equiv.sum_comp (contrEquiv1 dot_S136x1024_S1024x2048_S136x2048_1_0_0_1_n_n 1024 rfl rfl).symm]
  refine Finset.sum_congr rfl fun k _ => ?_
  rw [dot_lhs, dot_rhs]

/-- The accumulating payload at entry (r, j): the scratch entry plus the row-by-column sum of the block against the
    integer block read signed. -/
theorem pay2_apply (v3 : Vec Ideal S1024x2048 .i32) (v5 : Vec Ideal S136x2048 .f32) (v6 : Vec Ideal S136x1024 .bf16)
    (r : Fin 136) (j : Fin 2048) :
    k0_pay2 (F := Ideal) v3 v5 v6 (ix2 r j)
      = v5 (ix2 r j) + ∑ k : Fin 1024, v6 (ix2 r k) * (((v3 (ix2 k j)).toInt : ℝ) : EReal) := by
  unfold k0_pay2
  rw [shapeCast_self, shapeCast_self]
  show v5 (ix2 r j) + FloatOps.matmul dot_S136x1024_S1024x2048_S136x2048_1_0_0_1_n_n none v6 (sitofp .bf16 v3)
      (constant (F := Ideal) S136x2048 .f32 0x00000000#32) (ix2 r j) = _
  rw [matmul_zero_apply]
  rfl

end Cert.KernelIdeal.Pay

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.PayOut.lean ====
/-
  The three output payloads read at an index on the extended reals.

  With acc the [136, 2048] scratch block and cb, sb the two [64, 2048] blocks, the payloads are the sums over the 2048
  lanes of acc[b, ·] * cb[b, ·] + acc[64 + b, ·] * sb[b, ·], of acc[64 + b, ·] * cb[b, ·] - acc[b, ·] * sb[b, ·], and of
  row 128 of acc. The reduction's accumulator word is the neutral element of addition, so no initial value appears; a
  finite sum on the extended reals is a sum in a commutative monoid and no finiteness is used.
-/
import proofs.«114634_j23270132810218_2_alg».proof.Proof.Gen.KernelIdeal.Skeleton
import proofs.«114634_j23270132810218_2_alg».proof.Proof.LibAxisSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- A vector [64] viewed [1, 64, 1] reads, at (0, b, 0), the vector at b. -/
theorem cast_S64_S1x64x1_apply {α : Type} (x : S64.Idx → α) (b : Fin 64) :
    shapeCast S1x64x1 x shapeCasts_S64_S1x64x1 (ix3 (0 : Fin 1) b (0 : Fin 1)) = x (ix1 b) :=
  shapeCast_apply x shapeCasts_S64_S1x64x1 _ (ix1 b) (by
    rw [Shape.rowMajor_val_one, Shape.rowMajor_val_three]
    show b.val = (0 * 64 + b.val) * 1 + 0
    omega)

/-- A vector [1] viewed [1, 1, 1] reads, at (0, 0, 0), the vector at 0. -/
theorem cast_S1_S1x1x1_apply {α : Type} (x : S1.Idx → α) :
    shapeCast S1x1x1 x shapeCasts_S1_S1x1x1 (ix3 (0 : Fin 1) (0 : Fin 1) (0 : Fin 1)) = x (ix1 (0 : Fin 1)) :=
  shapeCast_apply x shapeCasts_S1_S1x1x1 _ (ix1 (0 : Fin 1)) (by
    rw [Shape.rowMajor_val_one, Shape.rowMajor_val_three]
    rfl)

/-- Rows 0..63 of the scratch block. -/
theorem pay3_apply (v16 : Vec Ideal S136x2048 .f32) (b : Fin 64) (j : Fin 2048) :
    k0_pay3 (F := Ideal) v16 (ix2 b j) = v16 (ix2 ⟨b.val, by have := b.isLt; omega⟩ j) := by
  unfold k0_pay3
  exact slice2_axis0_apply 0 v16 slices_S136x2048_o0_0_S64x2048 b j _ (Nat.zero_add _).symm

/-- Rows 64..127 of the scratch block. -/
theorem pay4_apply (v16 : Vec Ideal S136x2048 .f32) (b : Fin 64) (j : Fin 2048) :
    k0_pay4 (F := Ideal) v16 (ix2 b j) = v16 (ix2 ⟨64 + b.val, by have := b.isLt; omega⟩ j) := by
  unfold k0_pay4
  exact slice2_axis0_apply 64 v16 slices_S136x2048_o64_0_S64x2048 b j _ rfl

/-- The two [64, 2048] blocks pass through a cast to their own shape. -/
theorem pay5_eq (v20 : Vec Ideal S64x2048 .f32) : k0_pay5 (F := Ideal) v20 = v20 := by
  unfold k0_pay5
  exact shapeCast_self _ _
theorem pay6_eq (v22 : Vec Ideal S64x2048 .f32) : k0_pay6 (F := Ideal) v22 = v22 := by
  unfold k0_pay6
  exact shapeCast_self _ _

/-- The first output payload at (0, b, 0). -/
theorem pay7_apply (v16 : Vec Ideal S136x2048 .f32) (v20 v22 : Vec Ideal S64x2048 .f32) (b : Fin 64) :
    k0_pay7 (F := Ideal) v16 v20 v22 (ix3 (0 : Fin 1) b (0 : Fin 1))
      = ∑ j : Fin 2048, (v16 (ix2 ⟨b.val, by have := b.isLt; omega⟩ j) * v20 (ix2 b j)
          + v16 (ix2 ⟨64 + b.val, by have := b.isLt; omega⟩ j) * v22 (ix2 b j)) := by
  unfold k0_pay7
  refine (cast_S64_S1x64x1_apply _ b).trans ?_
  refine (Cert.LibAxisSum.sum_last _ _ reduces_S64x2048_S64 _ _ b).trans ?_
  refine Finset.sum_congr rfl fun j _ => ?_
  show k0_pay3 (F := Ideal) v16 (ix2 b j) * k0_pay5 (F := Ideal) v20 (ix2 b j)
      + k0_pay4 (F := Ideal) v16 (ix2 b j) * k0_pay6 (F := Ideal) v22 (ix2 b j) = _
  rw [pay3_apply, pay4_apply, pay5_eq, pay6_eq]

/-- The second output payload at (0, b, 0); the difference is the extended reals' own. -/
theorem pay8_apply (v16 : Vec Ideal S136x2048 .f32) (v20 v22 : Vec Ideal S64x2048 .f32) (b : Fin 64) :
    k0_pay8 (F := Ideal) v16 v20 v22 (ix3 (0 : Fin 1) b (0 : Fin 1))
      = ∑ j : Fin 2048, (v16 (ix2 ⟨64 + b.val, by have := b.isLt; omega⟩ j) * v20 (ix2 b j)
          - v16 (ix2 ⟨b.val, by have := b.isLt; omega⟩ j) * v22 (ix2 b j)) := by
  unfold k0_pay8
  refine (cast_S64_S1x64x1_apply _ b).trans ?_
  refine (Cert.LibAxisSum.sum_last _ _ reduces_S64x2048_S64 _ _ b).trans ?_
  refine Finset.sum_congr rfl fun j _ => ?_
  show k0_pay4 (F := Ideal) v16 (ix2 b j) * k0_pay5 (F := Ideal) v20 (ix2 b j)
      - k0_pay3 (F := Ideal) v16 (ix2 b j) * k0_pay6 (F := Ideal) v22 (ix2 b j) = _
  rw [pay3_apply, pay4_apply, pay5_eq, pay6_eq]

/-- The third output payload at (0, 0, 0): the sum of row 128 of the scratch block. -/
theorem pay9_apply (v16 : Vec Ideal S136x2048 .f32) :
    k0_pay9 (F := Ideal) v16 (ix3 (0 : Fin 1) (0 : Fin 1) (0 : Fin 1))
      = ∑ j : Fin 2048, v16 (ix2 (⟨128, by omega⟩ : Fin 136) j) := by
  unfold k0_pay9
  refine (cast_S1_S1x1x1_apply _).trans ?_
  refine (Cert.LibAxisSum.sum_last _ _ reduces_S1x2048_S1 _ _ (0 : Fin 1)).trans ?_
  refine Finset.sum_congr rfl fun j _ => ?_
  exact slice2_axis0_apply 128 v16 slices_S136x2048_o128_0_S1x2048 (0 : Fin 1) j _ rfl

end Cert.KernelIdeal.Pay

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.PlvAlgebra.lean ====
/-
  Finite sums regrouped, as the phase-locking kernel needs them.

  * A sum over 8192 indices accumulated in eight consecutive chunks of 1024: the partial sum after `n` chunks,
    its value at 0, its step, and its value after all eight chunks.
  * A sum over 8192 indices as the sum over four blocks of 2048 consecutive indices (with or without a leading
    `0 +` in front of each block's sum).
  * The total of a function of two indices below 8192: summing, over the four blocks of columns, the column sums
    (each entry multiplied by one) is the sum over all pairs.

  Only commutativity and associativity of finite sums, `0 + x = x` and `1 * x = x` are used, so everything holds
  on the extended reals with no finiteness assumption.
-/
import Mathlib.Algebra.BigOperators.Fin
import Idealize.ShloMosaic.PureOps.Ideal
import Idealize.ShloMosaic.Lib.ValueIdx
import proofs.«114634_j23270132810218_2_alg».proof.Proof.LibSumBlocks

noncomputable section

namespace Cert.Plv

open Idealize.ShloMosaic Idealize.ShloMosaic.ValueIdx

/-! ## Eight chunks of 1024 -/

section Chunks
variable {M : Type*} [AddCommMonoid M]

/-- The sum of `f` over the first `n * 1024` indices (those below 8192). -/
def partialSum (f : Fin 8192 → M) (n : ℕ) : M :=
  ∑ k ∈ Finset.range (n * 1024), if h : k < 8192 then f ⟨k, h⟩ else 0

/-- Index `k` of chunk `n`, `n < 8`, is below 8192. -/
theorem chunk_lt {n : ℕ} (hn : n < 8) (k : Fin 1024) : n * 1024 + k.val < 8192 := by
  have := k.isLt; omega

/-- Before any chunk the partial sum is zero. -/
theorem partialSum_zero (f : Fin 8192 → M) : partialSum f 0 = 0 := by
  simp [partialSum]

/-- One more chunk adds that chunk's sum. -/
theorem partialSum_succ (f : Fin 8192 → M) (n : ℕ) (hn : n < 8) :
    partialSum f (n + 1) = partialSum f n + ∑ k : Fin 1024, f ⟨n * 1024 + k.val, chunk_lt hn k⟩ := by
  unfold partialSum
  rw [Nat.succ_mul, Finset.sum_range_add]
  refine congrArg (_ + ·) ?_
  rw [Finset.sum_range]
  exact Finset.sum_congr rfl fun k _ => dif_pos (chunk_lt hn k)

/-- After the eight chunks the partial sum is the whole sum. -/
theorem partialSum_eight (f : Fin 8192 → M) : partialSum f 8 = ∑ q : Fin 8192, f q := by
  unfold partialSum
  rw [show 8 * 1024 = 8192 from rfl, Finset.sum_range]
  exact Finset.sum_congr rfl fun k _ => dif_pos k.isLt

end Chunks

/-! ## Four blocks of 2048 -/

section Blocks
variable {M : Type*} [AddCommMonoid M]

/-- Position `j` of block `nb` is below 8192. -/
theorem blk_lt (nb : Fin 4) (j : Fin 2048) : nb.val * 2048 + j.val < 8192 :=
  Cert.SumBlocks.block_lt nb j

/-- A sum over 8192 indices, block by block. -/
theorem sum_blocks (g : Fin 8192 → M) :
    ∑ nb : Fin 4, ∑ j : Fin 2048, g ⟨nb.val * 2048 + j.val, blk_lt nb j⟩ = ∑ j : Fin 8192, g j :=
  (Cert.SumBlocks.sum_fin_blocks 4 2048 rfl g).symm

/-- The same with each block's sum added to zero. -/
theorem sum_blocks_zero_add (g : Fin 8192 → M) :
    ∑ nb : Fin 4, (0 + ∑ j : Fin 2048, g ⟨nb.val * 2048 + j.val, blk_lt nb j⟩) = ∑ j : Fin 8192, g j := by
  simp only [zero_add]
  exact sum_blocks g

/-- The total of a function of a pair of indices: over the blocks of columns, the columns of the block, the rows. -/
theorem sum_idx_blocks (G : (⟨2, ![8192, 8192]⟩ : Shape).Idx → M) :
    ∑ nb : Fin 4, ∑ j : Fin 2048, ∑ q : Fin 8192, G (ix2 q ⟨nb.val * 2048 + j.val, blk_lt nb j⟩) = ∑ i, G i := by
  refine (sum_blocks (fun j => ∑ q : Fin 8192, G (ix2 q j))).trans ?_
  exact Finset.sum_comm.trans (sum_idx2 G).symm

end Blocks

/-! ## The mask total, on the extended reals -/

/-- The column sums of the entries multiplied by one, added block by block to zero, give the total. -/
theorem mask_total_idx (G : (⟨2, ![8192, 8192]⟩ : Shape).Idx → EReal) :
    ∑ nb : Fin 4, (0 + ∑ j : Fin 2048, ∑ q : Fin 8192, 1 * G (ix2 q ⟨nb.val * 2048 + j.val, blk_lt nb j⟩))
      = ∑ i, G i := by
  simp only [zero_add, one_mul]
  exact sum_idx_blocks G

/-- The same for a function of the two coordinates. -/
theorem mask_total (Mh : Fin 8192 → Fin 8192 → EReal) :
    ∑ nb : Fin 4, (0 + ∑ j : Fin 2048, ∑ q : Fin 8192, 1 * Mh q ⟨nb.val * 2048 + j.val, blk_lt nb j⟩)
      = ∑ i : (⟨2, ![8192, 8192]⟩ : Shape).Idx, Mh ⟨(i 0).val, (i 0).isLt⟩ ⟨(i 1).val, (i 1).isLt⟩ :=
  mask_total_idx (fun i => Mh ⟨(i 0).val, (i 0).isLt⟩ ⟨(i 1).val, (i 1).isLt⟩)

end Cert.Plv

end
-- ==== Proof.KI.Accum.lean ====
/-
  The accumulator, step by step, over the extended reals.

  Fix a column tile nb of the mask. Write casa r q for the stacked left operand (rows 0..63 the cosines of the first
  phase array, rows 64..127 its sines, rows 128..135 ones) and M q j for the mask's entries as numbers. After minor
  step na of tile nb the accumulator's entry (r, j) is the sum of casa r q * M q (nb*2048 + j) over the first
  (na+1)*1024 indices q of the contraction axis: at step 0 it is zero plus the first chunk's sum, and every later
  step adds its own chunk to what the step before left. After step 7 it is the full sum over q. The three output
  blocks written at step 7 are the lane sums of that finished accumulator against the second phase array's cosine
  and sine blocks, and of its row 128.
-/
import proofs.«114634_j23270132810218_2_alg».proof.Proof.KI.Pieces
import proofs.«114634_j23270132810218_2_alg».proof.Proof.KI.BlockReads
import proofs.«114634_j23270132810218_2_alg».proof.Proof.PayAcc
import proofs.«114634_j23270132810218_2_alg».proof.Proof.PayOut
import proofs.«114634_j23270132810218_2_alg».proof.Proof.PlvAlgebra

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.KernelIdeal.Pay Idealize.ShloMosaic.ValueIdx

local notation "𝕄" => MT nD τ sig Unit (Elt Ideal) ℕ (UR sig nD τ) ℕ

variable (m : (ℓ : Loc nD τ sig) → Buf (Elt Ideal) ℓ) (c : Dev nD)

open Cert.Plv

/-- The stacked left operand as the region finds it. -/
def casa (r : Fin 136) (q : Fin 8192) : EReal := V m c main_v7 (ix2 r q)
/-- The mask's entries, as numbers. -/
def maskR (q j : Fin 8192) : EReal := (((V m c main_arg2 (ix2 q j)).toInt : ℝ) : EReal)
/-- The second phase array's cosines and sines as the region finds them. -/
def cbR (b : Fin 64) (j : Fin 8192) : EReal := V m c main_v4 (ix2 b j)
def sbR (b : Fin 64) (j : Fin 8192) : EReal := V m c main_v5 (ix2 b j)

/-- Column j of tile nb, and position k of chunk na, in the full axes. -/
def colIdx (nb : ℕ) (hnb : nb < 4) (j : Fin 2048) : Fin 8192 := ⟨nb * 2048 + j.val, by have := j.isLt; omega⟩
def rowIdx (na : ℕ) (hna : na < 8) (k : Fin 1024) : Fin 8192 := ⟨na * 1024 + k.val, by have := k.isLt; omega⟩

theorem pt_lt' (nb na : ℕ) (hnb : nb < 4) (hna : na < 8) : nb * 8 + na < cfg0.N := by
  rw [show cfg0.N = 32 from N_0]; omega

/-- The summand of entry (r, j) of tile nb's matrix product. -/
def term (nb : ℕ) (hnb : nb < 4) (r : Fin 136) (j : Fin 2048) (q : Fin 8192) : EReal :=
  casa m c r q * maskR m c q (colIdx nb hnb j)

/-- One accumulation step at the point of tile nb, minor step na: the stored payload at (r, j) is what the
    accumulator held there plus the chunk's sum. -/
theorem step_entry (t : Fin cfg0.N) (nb na : ℕ) (hnb : nb < 4) (hna : na < 8) (ht : t.val = nb * 8 + na)
    (xs : Vec Ideal S136x2048 .f32) (r : Fin 136) (j : Fin 2048) :
    k0_pay2 (F := Ideal) (iblk m c 3 t) xs (iblk m c 0 t) (ix2 r j)
      = xs (ix2 r j) + ∑ k : Fin 1024, term m c nb hnb r j ⟨na * 1024 + k.val, chunk_lt hna k⟩ := by
  refine (pay2_apply (iblk m c 3 t) xs (iblk m c 0 t) r j).trans ?_
  refine congrArg (xs (ix2 r j) + ·) (Finset.sum_congr rfl fun k _ => ?_)
  have hm : t.val % 8 = na := by omega
  have hd : t.val / 8 = nb := by omega
  rw [iblk0_apply m c t r k, iblk3_apply m c t k j]
  unfold term casa maskR colIdx
  simp only [hm, hd]

/-- After minor step na of tile nb the accumulator holds the partial sums over the first (na+1) chunks. -/
theorem acc_eq (nb : ℕ) (hnb : nb < 4) : ∀ (na : ℕ) (hna : na < 8) (r : Fin 136) (j : Fin 2048),
    (outsAt0 m c (nb * 8 + na) (pt_lt' nb na hnb hna)).2.2.2 (ix2 r j) = partialSum (term m c nb hnb r j) (na + 1)
  | 0, hna, r, j => by
    have h0 : ((⟨nb * 8 + 0, pt_lt' nb 0 hnb hna⟩ : Fin cfg0.N)).val % 8 = 0 := by dsimp only; omega
    have h1 : ¬((⟨nb * 8 + 0, pt_lt' nb 0 hnb hna⟩ : Fin cfg0.N)).val % 8 = 7 := by dsimp only; omega
    have e := outsAt0_A m c ⟨nb * 8 + 0, pt_lt' nb 0 hnb hna⟩ h0 h1
    refine (congrArg (fun p => p.2.2.2 (ix2 r j)) e).trans ?_
    dsimp only
    rw [sout_A]
    refine (step_entry m c ⟨nb * 8 + 0, pt_lt' nb 0 hnb hna⟩ nb 0 hnb hna rfl (k0_pay1 (F := Ideal)) r j).trans ?_
    rw [pay1_apply, partialSum_succ _ 0 (by omega), partialSum_zero]
  | na + 1, hna, r, j => by
    have h0 : ¬((⟨nb * 8 + (na + 1), pt_lt' nb (na + 1) hnb hna⟩ : Fin cfg0.N)).val % 8 = 0 := by dsimp only; omega
    have ih := acc_eq nb hnb na (by omega) r j
    by_cases h1 : ((⟨nb * 8 + (na + 1), pt_lt' nb (na + 1) hnb hna⟩ : Fin cfg0.N)).val % 8 = 7
    · have e := outsAt0_C m c ⟨nb * 8 + (na + 1), pt_lt' nb (na + 1) hnb hna⟩ h0 h1
      refine (congrArg (fun p => p.2.2.2 (ix2 r j)) e).trans ?_
      dsimp only
      rw [sout_C]
      refine (step_entry m c ⟨nb * 8 + (na + 1), pt_lt' nb (na + 1) hnb hna⟩ nb (na + 1) hnb hna rfl _ r j).trans ?_
      rw [partialSum_succ _ (na + 1) hna]
      exact congrArg (· + _) ih
    · have e := outsAt0_B m c ⟨nb * 8 + (na + 1), pt_lt' nb (na + 1) hnb hna⟩ h0 h1
      refine (congrArg (fun p => p.2.2.2 (ix2 r j)) e).trans ?_
      dsimp only
      rw [sout_B]
      refine (step_entry m c ⟨nb * 8 + (na + 1), pt_lt' nb (na + 1) hnb hna⟩ nb (na + 1) hnb hna rfl _ r j).trans ?_
      rw [partialSum_succ _ (na + 1) hna]
      exact congrArg (· + _) ih

/-- After the last minor step of tile nb: the full sum over the contraction axis. -/
theorem acc_full (nb : ℕ) (hnb : nb < 4) (r : Fin 136) (j : Fin 2048) :
    (outsAt0 m c (nb * 8 + 7) (pt_lt' nb 7 hnb (by omega))).2.2.2 (ix2 r j) = ∑ q : Fin 8192, term m c nb hnb r j q :=
  (acc_eq m c nb hnb 7 (by omega) r j).trans (partialSum_eight _)

/-- At the last minor step the three output blocks are the three reductions of the accumulator left there. -/
theorem last_outs (nb : ℕ) (hnb : nb < 4) :
    (outsAt0 m c (nb * 8 + 7) (pt_lt' nb 7 hnb (by omega))).1
        = k0_pay7 (F := Ideal) (outsAt0 m c (nb * 8 + 7) (pt_lt' nb 7 hnb (by omega))).2.2.2
            (iblk m c 1 ⟨nb * 8 + 7, pt_lt' nb 7 hnb (by omega)⟩) (iblk m c 2 ⟨nb * 8 + 7, pt_lt' nb 7 hnb (by omega)⟩)
    ∧ (outsAt0 m c (nb * 8 + 7) (pt_lt' nb 7 hnb (by omega))).2.1
        = k0_pay8 (F := Ideal) (outsAt0 m c (nb * 8 + 7) (pt_lt' nb 7 hnb (by omega))).2.2.2
            (iblk m c 1 ⟨nb * 8 + 7, pt_lt' nb 7 hnb (by omega)⟩) (iblk m c 2 ⟨nb * 8 + 7, pt_lt' nb 7 hnb (by omega)⟩)
    ∧ (outsAt0 m c (nb * 8 + 7) (pt_lt' nb 7 hnb (by omega))).2.2.1
        = k0_pay9 (F := Ideal) (outsAt0 m c (nb * 8 + 7) (pt_lt' nb 7 hnb (by omega))).2.2.2 := by
  have h0 : ¬((⟨nb * 8 + 7, pt_lt' nb 7 hnb (by omega)⟩ : Fin cfg0.N)).val % 8 = 0 := by dsimp only; omega
  have h1 : ((⟨nb * 8 + 7, pt_lt' nb 7 hnb (by omega)⟩ : Fin cfg0.N)).val % 8 = 7 := by dsimp only; omega
  have e := outsAt0_C m c ⟨nb * 8 + 7, pt_lt' nb 7 hnb (by omega)⟩ h0 h1
  dsimp only at e
  rw [e]
  dsimp only
  rw [out_C_4, out_C_5, out_C_6, sout_C]
  exact ⟨rfl, rfl, rfl⟩

/-- The first output block of tile nb, entry b. -/
theorem out4_entry (nb : ℕ) (hnb : nb < 4) (b : Fin 64) :
    (outsAt0 m c (nb * 8 + 7) (pt_lt' nb 7 hnb (by omega))).1 (ix3 (0 : Fin 1) b (0 : Fin 1))
      = ∑ j : Fin 2048, ((∑ q : Fin 8192, term m c nb hnb ⟨b.val, by have := b.isLt; omega⟩ j q) * cbR m c b (colIdx nb hnb j)
          + (∑ q : Fin 8192, term m c nb hnb ⟨64 + b.val, by have := b.isLt; omega⟩ j q) * sbR m c b (colIdx nb hnb j)) := by
  rw [(last_outs m c nb hnb).1]
  refine (pay7_apply _ _ _ b).trans (Finset.sum_congr rfl fun j _ => ?_)
  rw [acc_full m c nb hnb, acc_full m c nb hnb, iblk1_apply m c _ b j, iblk2_apply m c _ b j]
  have hd : (nb * 8 + 7) / 8 = nb := by omega
  unfold cbR sbR colIdx
  simp only [hd]

/-- The second output block of tile nb, entry b. -/
theorem out5_entry (nb : ℕ) (hnb : nb < 4) (b : Fin 64) :
    (outsAt0 m c (nb * 8 + 7) (pt_lt' nb 7 hnb (by omega))).2.1 (ix3 (0 : Fin 1) b (0 : Fin 1))
      = ∑ j : Fin 2048, ((∑ q : Fin 8192, term m c nb hnb ⟨64 + b.val, by have := b.isLt; omega⟩ j q) * cbR m c b (colIdx nb hnb j)
          - (∑ q : Fin 8192, term m c nb hnb ⟨b.val, by have := b.isLt; omega⟩ j q) * sbR m c b (colIdx nb hnb j)) := by
  rw [(last_outs m c nb hnb).2.1]
  refine (pay8_apply _ _ _ b).trans (Finset.sum_congr rfl fun j _ => ?_)
  rw [acc_full m c nb hnb, acc_full m c nb hnb, iblk1_apply m c _ b j, iblk2_apply m c _ b j]
  have hd : (nb * 8 + 7) / 8 = nb := by omega
  unfold cbR sbR colIdx
  simp only [hd]

/-- The third output block of tile nb: the sum of the accumulator's row 128. -/
theorem out6_entry (nb : ℕ) (hnb : nb < 4) :
    (outsAt0 m c (nb * 8 + 7) (pt_lt' nb 7 hnb (by omega))).2.2.1 (ix3 (0 : Fin 1) (0 : Fin 1) (0 : Fin 1))
      = ∑ j : Fin 2048, ∑ q : Fin 8192, term m c nb hnb (⟨128, by omega⟩ : Fin 136) j q := by
  rw [(last_outs m c nb hnb).2.2]
  refine (pay9_apply _).trans (Finset.sum_congr rfl fun j _ => ?_)
  rw [acc_full m c nb hnb]

end Cert.KernelIdeal.Val

end
-- ==== Proof.KI.Arrays.lean ====
/-
  The three output arrays after the run. Each array has one block per column tile of the mask, written back once,
  at the tile's last minor step; the blocks tile the array along its leading axis. So the array ends holding, at
  (nb, ·, ·), what the last minor step of tile nb left in the window's staging buffer.
-/
import proofs.«114634_j23270132810218_2_alg».proof.Proof.KI.Accum

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.KernelIdeal.Pay Idealize.ShloMosaic.ValueIdx

local notation "𝕄" => MT nD τ sig Unit (Elt Ideal) ℕ (UR sig nD τ) ℕ

variable (m : (ℓ : Loc nD τ sig) → Buf (Elt Ideal) ℓ) (c : Dev nD)

open Cert.Plv

/-! ## Output window 4 -/

theorem index0_4 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- What the array ends holding: at (nb, ·, ·) what tile nb's last minor step left in the window's buffer. -/
def G4 : Buf (Elt Ideal) ((c : Thread nD τ).loc main_v8_0) := fun i =>
  (outsAt0 m c ((i 0).val * 8 + 7) (pt_lt' (i 0).val 7 (i 0).isLt (by omega))).1 (ix3 (0 : Fin 1) (⟨(i 1).val, (i 1).isLt⟩ : Fin 64) (0 : Fin 1))

/-- What a flushing point writes back is its block of that function. -/
theorem flushed4_eq (t : Fin cfg0.N) (hf : (cfg0.win 4).flush t = true) :
    (dats m 0 c).flushed 4 t = ((cfg0.win 4).blk t).view.read (Elt Ideal) (G4 m c) := by
  have h7 : t.val % 8 = 7 := (flush0_4 t).mp hf
  have hN : t.val < 32 := lt_of_lt_of_eq t.isLt (show cfg0.N = 32 from N_0)
  obtain ⟨e0, e1, e2⟩ := index0_4 t
  show (cfg0.win 4).cut (grid0.coords t) ((dats m 0 c).after 4 t) = _
  rw [after0_4]
  funext j
  show (outsAt0 m c t.val t.isLt).1 j = G4 m c (((cfg0.win 4).blk t).view.emb j)
  have hj0 : (j 0).val < 1 := (j 0).isLt
  have hj1 : (j 1).val < 64 := (j 1).isLt
  have hj2 : (j 2).val < 1 := (j 2).isLt
  have key : ∀ (n : ℕ) (hn : n < cfg0.N) (B : Fin 64), n = t.val → B.val = (j 1).val →
      (outsAt0 m c t.val t.isLt).1 j = (outsAt0 m c n hn).1 (ix3 (0 : Fin 1) B (0 : Fin 1)) := by
    intro n hn B h1 h2
    subst h1
    refine congrArg _ (funext fun a => Fin.ext ?_)
    match a with
    | ⟨0, _⟩ => show (j 0).val = 0; omega
    | ⟨1, _⟩ => show (j 1).val = B.val; omega
    | ⟨2, _⟩ => show (j 2).val = 0; omega
  unfold G4
  refine key _ _ _ ?_ ?_
  · show (win0_4.index t (0 : Fin 3) * 1 + 1 * (j 0).val) * 8 + 7 = t.val
    rw [e0]; omega
  · show win0_4.index t (1 : Fin 3) * 64 + 1 * (j 1).val = (j 1).val
    rw [e1]; omega

theorem mem_blk4 (t : Fin cfg0.N) (i : main_v8_0.ty.shape.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v8_0).slice (win0_4.rect t)).set ↔ _
  rw [View.set_slice_whole, Rect.mem_set_unit]
  exact Iff.rfl

/-- Every index of the array is in the block of its tile's last minor step. -/
theorem cover4 (i : main_v8_0.ty.shape.Idx) :
    ∃ t : Fin cfg0.N, (cfg0.win 4).flush t = true ∧ i ∈ ((cfg0.win 4).blk t).view.set := by
  have hi0 : (i 0).val < 4 := (i 0).isLt
  have hi1 : (i 1).val < 64 := (i 1).isLt
  have hi2 : (i 2).val < 1 := (i 2).isLt
  obtain ⟨e0, e1, e2⟩ := index0_4 ⟨(i 0).val * 8 + 7, pt_lt' (i 0).val 7 hi0 (by omega)⟩
  refine ⟨⟨(i 0).val * 8 + 7, pt_lt' (i 0).val 7 hi0 (by omega)⟩, (flush0_4 _).mpr (by show ((i 0).val * 8 + 7) % 8 = 7; omega), ?_⟩
  rw [mem_blk4]
  have e0' : win0_4.index ⟨(i 0).val * 8 + 7, pt_lt' (i 0).val 7 hi0 (by omega)⟩ (0 : Fin 3) = (i 0).val := by rw [e0]; show ((i 0).val * 8 + 7) / 8 = (i 0).val; omega
  intro a
  match a with
  | ⟨0, _⟩ => show win0_4.index _ (0 : Fin 3) * 1 ≤ (i 0).val ∧ (i 0).val < win0_4.index _ (0 : Fin 3) * 1 + 1
              rw [e0']; omega
  | ⟨1, _⟩ => show win0_4.index _ (1 : Fin 3) * 64 ≤ (i 1).val ∧ (i 1).val < win0_4.index _ (1 : Fin 3) * 64 + 64
              rw [e1]; omega
  | ⟨2, _⟩ => show win0_4.index _ (2 : Fin 3) * 1 ≤ (i 2).val ∧ (i 2).val < win0_4.index _ (2 : Fin 3) * 1 + 1
              rw [e2]; omega

/-- The array after the run. -/
theorem final4 : (dats m 0 c).arrAt 4 cfg0.N = G4 m c :=
  (dats m 0 c).arrAt_eq_of_cover 4 (G4 m c) (flushed4_eq m c) (cover4)

/-! ## Output window 5 -/

theorem index0_5 : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)

/-- What the array ends holding: at (nb, ·, ·) what tile nb's last minor step left in the window's buffer. -/
def G5 : Buf (Elt Ideal) ((c : Thread nD τ).loc main_v8_1) := fun i =>
  (outsAt0 m c ((i 0).val * 8 + 7) (pt_lt' (i 0).val 7 (i 0).isLt (by omega))).2.1 (ix3 (0 : Fin 1) (⟨(i 1).val, (i 1).isLt⟩ : Fin 64) (0 : Fin 1))

/-- What a flushing point writes back is its block of that function. -/
theorem flushed5_eq (t : Fin cfg0.N) (hf : (cfg0.win 5).flush t = true) :
    (dats m 0 c).flushed 5 t = ((cfg0.win 5).blk t).view.read (Elt Ideal) (G5 m c) := by
  have h7 : t.val % 8 = 7 := (flush0_5 t).mp hf
  have hN : t.val < 32 := lt_of_lt_of_eq t.isLt (show cfg0.N = 32 from N_0)
  obtain ⟨e0, e1, e2⟩ := index0_5 t
  show (cfg0.win 5).cut (grid0.coords t) ((dats m 0 c).after 5 t) = _
  rw [after0_5]
  funext j
  show (outsAt0 m c t.val t.isLt).2.1 j = G5 m c (((cfg0.win 5).blk t).view.emb j)
  have hj0 : (j 0).val < 1 := (j 0).isLt
  have hj1 : (j 1).val < 64 := (j 1).isLt
  have hj2 : (j 2).val < 1 := (j 2).isLt
  have key : ∀ (n : ℕ) (hn : n < cfg0.N) (B : Fin 64), n = t.val → B.val = (j 1).val →
      (outsAt0 m c t.val t.isLt).2.1 j = (outsAt0 m c n hn).2.1 (ix3 (0 : Fin 1) B (0 : Fin 1)) := by
    intro n hn B h1 h2
    subst h1
    refine congrArg _ (funext fun a => Fin.ext ?_)
    match a with
    | ⟨0, _⟩ => show (j 0).val = 0; omega
    | ⟨1, _⟩ => show (j 1).val = B.val; omega
    | ⟨2, _⟩ => show (j 2).val = 0; omega
  unfold G5
  refine key _ _ _ ?_ ?_
  · show (win0_5.index t (0 : Fin 3) * 1 + 1 * (j 0).val) * 8 + 7 = t.val
    rw [e0]; omega
  · show win0_5.index t (1 : Fin 3) * 64 + 1 * (j 1).val = (j 1).val
    rw [e1]; omega

theorem mem_blk5 (t : Fin cfg0.N) (i : main_v8_1.ty.shape.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v8_1).slice (win0_5.rect t)).set ↔ _
  rw [View.set_slice_whole, Rect.mem_set_unit]
  exact Iff.rfl

/-- Every index of the array is in the block of its tile's last minor step. -/
theorem cover5 (i : main_v8_1.ty.shape.Idx) :
    ∃ t : Fin cfg0.N, (cfg0.win 5).flush t = true ∧ i ∈ ((cfg0.win 5).blk t).view.set := by
  have hi0 : (i 0).val < 4 := (i 0).isLt
  have hi1 : (i 1).val < 64 := (i 1).isLt
  have hi2 : (i 2).val < 1 := (i 2).isLt
  obtain ⟨e0, e1, e2⟩ := index0_5 ⟨(i 0).val * 8 + 7, pt_lt' (i 0).val 7 hi0 (by omega)⟩
  refine ⟨⟨(i 0).val * 8 + 7, pt_lt' (i 0).val 7 hi0 (by omega)⟩, (flush0_5 _).mpr (by show ((i 0).val * 8 + 7) % 8 = 7; omega), ?_⟩
  rw [mem_blk5]
  have e0' : win0_5.index ⟨(i 0).val * 8 + 7, pt_lt' (i 0).val 7 hi0 (by omega)⟩ (0 : Fin 3) = (i 0).val := by rw [e0]; show ((i 0).val * 8 + 7) / 8 = (i 0).val; omega
  intro a
  match a with
  | ⟨0, _⟩ => show win0_5.index _ (0 : Fin 3) * 1 ≤ (i 0).val ∧ (i 0).val < win0_5.index _ (0 : Fin 3) * 1 + 1
              rw [e0']; omega
  | ⟨1, _⟩ => show win0_5.index _ (1 : Fin 3) * 64 ≤ (i 1).val ∧ (i 1).val < win0_5.index _ (1 : Fin 3) * 64 + 64
              rw [e1]; omega
  | ⟨2, _⟩ => show win0_5.index _ (2 : Fin 3) * 1 ≤ (i 2).val ∧ (i 2).val < win0_5.index _ (2 : Fin 3) * 1 + 1
              rw [e2]; omega

/-- The array after the run. -/
theorem final5 : (dats m 0 c).arrAt 5 cfg0.N = G5 m c :=
  (dats m 0 c).arrAt_eq_of_cover 5 (G5 m c) (flushed5_eq m c) (cover5)

/-! ## Output window 6 -/

theorem index0_6 : ∀ t : Fin cfg0.N, win0_6.index t (0 : Fin 3) = t.val / 8 ∧ win0_6.index t (1 : Fin 3) = 0 ∧ win0_6.index t (2 : Fin 3) = 0 :=
  (by decide +kernel : ∀ t : Fin grid0.N, win0_6.index t (0 : Fin 3) = t.val / 8 ∧ win0_6.index t (1 : Fin 3) = 0 ∧ win0_6.index t (2 : Fin 3) = 0)

/-- What the array ends holding: at (nb, ·, ·) what tile nb's last minor step left in the window's buffer. -/
def G6 : Buf (Elt Ideal) ((c : Thread nD τ).loc main_v8_2) := fun i =>
  (outsAt0 m c ((i 0).val * 8 + 7) (pt_lt' (i 0).val 7 (i 0).isLt (by omega))).2.2.1 (ix3 (0 : Fin 1) (0 : Fin 1) (0 : Fin 1))

/-- What a flushing point writes back is its block of that function. -/
theorem flushed6_eq (t : Fin cfg0.N) (hf : (cfg0.win 6).flush t = true) :
    (dats m 0 c).flushed 6 t = ((cfg0.win 6).blk t).view.read (Elt Ideal) (G6 m c) := by
  have h7 : t.val % 8 = 7 := (flush0_6 t).mp hf
  have hN : t.val < 32 := lt_of_lt_of_eq t.isLt (show cfg0.N = 32 from N_0)
  obtain ⟨e0, e1, e2⟩ := index0_6 t
  show (cfg0.win 6).cut (grid0.coords t) ((dats m 0 c).after 6 t) = _
  rw [after0_6]
  funext j
  show (outsAt0 m c t.val t.isLt).2.2.1 j = G6 m c (((cfg0.win 6).blk t).view.emb j)
  have hj0 : (j 0).val < 1 := (j 0).isLt
  have hj1 : (j 1).val < 1 := (j 1).isLt
  have hj2 : (j 2).val < 1 := (j 2).isLt
  have key : ∀ (n : ℕ) (hn : n < cfg0.N) (B : Fin 1), n = t.val → B.val = (j 1).val →
      (outsAt0 m c t.val t.isLt).2.2.1 j = (outsAt0 m c n hn).2.2.1 (ix3 (0 : Fin 1) B (0 : Fin 1)) := by
    intro n hn B h1 h2
    subst h1
    refine congrArg _ (funext fun a => Fin.ext ?_)
    match a with
    | ⟨0, _⟩ => show (j 0).val = 0; omega
    | ⟨1, _⟩ => show (j 1).val = B.val; omega
    | ⟨2, _⟩ => show (j 2).val = 0; omega
  unfold G6
  refine key _ _ _ ?_ ?_
  · show (win0_6.index t (0 : Fin 3) * 1 + 1 * (j 0).val) * 8 + 7 = t.val
    rw [e0]; omega
  · show (0 : ℕ) = (j 1).val
    omega

theorem mem_blk6 (t : Fin cfg0.N) (i : main_v8_2.ty.shape.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v8_2).slice (win0_6.rect t)).set ↔ _
  rw [View.set_slice_whole, Rect.mem_set_unit]
  exact Iff.rfl

/-- Every index of the array is in the block of its tile's last minor step. -/
theorem cover6 (i : main_v8_2.ty.shape.Idx) :
    ∃ t : Fin cfg0.N, (cfg0.win 6).flush t = true ∧ i ∈ ((cfg0.win 6).blk t).view.set := by
  have hi0 : (i 0).val < 4 := (i 0).isLt
  have hi1 : (i 1).val < 1 := (i 1).isLt
  have hi2 : (i 2).val < 1 := (i 2).isLt
  obtain ⟨e0, e1, e2⟩ := index0_6 ⟨(i 0).val * 8 + 7, pt_lt' (i 0).val 7 hi0 (by omega)⟩
  refine ⟨⟨(i 0).val * 8 + 7, pt_lt' (i 0).val 7 hi0 (by omega)⟩, (flush0_6 _).mpr (by show ((i 0).val * 8 + 7) % 8 = 7; omega), ?_⟩
  rw [mem_blk6]
  have e0' : win0_6.index ⟨(i 0).val * 8 + 7, pt_lt' (i 0).val 7 hi0 (by omega)⟩ (0 : Fin 3) = (i 0).val := by rw [e0]; show ((i 0).val * 8 + 7) / 8 = (i 0).val; omega
  intro a
  match a with
  | ⟨0, _⟩ => show win0_6.index _ (0 : Fin 3) * 1 ≤ (i 0).val ∧ (i 0).val < win0_6.index _ (0 : Fin 3) * 1 + 1
              rw [e0']; omega
  | ⟨1, _⟩ => show win0_6.index _ (1 : Fin 3) * 1 ≤ (i 1).val ∧ (i 1).val < win0_6.index _ (1 : Fin 3) * 1 + 1
              rw [e1]; omega
  | ⟨2, _⟩ => show win0_6.index _ (2 : Fin 3) * 1 ≤ (i 2).val ∧ (i 2).val < win0_6.index _ (2 : Fin 3) * 1 + 1
              rw [e2]; omega

/-- The array after the run. -/
theorem final6 : (dats m 0 c).arrAt 6 cfg0.N = G6 m c :=
  (dats m 0 c).arrAt_eq_of_cover 6 (G6 m c) (flushed6_eq m c) (cover6)

end Cert.KernelIdeal.Val

end
-- ==== Proof.HostReads.lean ====
/-
  Host operations of the program read at an index on the extended reals.

  The [136, 8192] operand is three arrays laid end to end along the rows: rows 0..63 the first, rows 64..127 the second,
  rows 128..135 the third, which is the word of 1.0 everywhere. After the grid, each [4, 64, 1] result viewed [4, 64] is
  summed over its four blocks, and the [4, 1, 1] one viewed [4] likewise: the initial value plus a sum over Fin 4. A
  finite sum on the extended reals is a sum in a commutative monoid; no finiteness is used.
-/
import proofs.«114634_j23270132810218_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## The three arrays laid end to end along the rows -/

/-- Rows 0..63 read the first array. -/
theorem concat_apply_lo (u0 u1 : (⟨S64x8192, .bf16⟩ : BufTy).Contents (Elt Ideal))
    (u2 : (⟨S8x8192, .bf16⟩ : BufTy).Contents (Elt Ideal)) (r : Fin 136) (q : Fin 8192) (h : r.val < 64) :
    concatenate S136x8192 0 [⟨S64x8192, u0⟩, ⟨S64x8192, u1⟩, ⟨S8x8192, u2⟩]
        concatenates_S64x8192_S64x8192_S8x8192_S136x8192_d0 (ix2 r q)
      = u0 (ix2 ⟨r.val, h⟩ q) :=
  concatenate_apply_piece (0 : Fin S136x8192.rank) [⟨S64x8192, u0⟩, ⟨S64x8192, u1⟩, ⟨S8x8192, u2⟩]
    concatenates_S64x8192_S64x8192_S8x8192_S136x8192_d0 (ix2 r q)
    0 (show 0 < 3 by omega) S64x8192 u0 rfl rfl 0 rfl (ix2 ⟨r.val, h⟩ q)
    (fun b hb => by
      match b with
      | ⟨0, _⟩ => exact absurd (Fin.ext rfl) hb
      | ⟨1, _⟩ => rfl)
    (Nat.zero_add _)

/-- Rows 64..127 read the second array. -/
theorem concat_apply_mid (u0 u1 : (⟨S64x8192, .bf16⟩ : BufTy).Contents (Elt Ideal))
    (u2 : (⟨S8x8192, .bf16⟩ : BufTy).Contents (Elt Ideal)) (r : Fin 136) (q : Fin 8192) (h1 : 64 ≤ r.val) (h2 : r.val < 128) :
    concatenate S136x8192 0 [⟨S64x8192, u0⟩, ⟨S64x8192, u1⟩, ⟨S8x8192, u2⟩]
        concatenates_S64x8192_S64x8192_S8x8192_S136x8192_d0 (ix2 r q)
      = u1 (ix2 ⟨r.val - 64, by omega⟩ q) :=
  concatenate_apply_piece (0 : Fin S136x8192.rank) [⟨S64x8192, u0⟩, ⟨S64x8192, u1⟩, ⟨S8x8192, u2⟩]
    concatenates_S64x8192_S64x8192_S8x8192_S136x8192_d0 (ix2 r q)
    1 (show 1 < 3 by omega) S64x8192 u1 rfl rfl 64 rfl (ix2 ⟨r.val - 64, by omega⟩ q)
    (fun b hb => by
      match b with
      | ⟨0, _⟩ => exact absurd (Fin.ext rfl) hb
      | ⟨1, _⟩ => rfl)
    (by show 64 + (r.val - 64) = r.val; omega)

/-- Rows 128..135 read the third array. -/
theorem concat_apply_hi (u0 u1 : (⟨S64x8192, .bf16⟩ : BufTy).Contents (Elt Ideal))
    (u2 : (⟨S8x8192, .bf16⟩ : BufTy).Contents (Elt Ideal)) (r : Fin 136) (q : Fin 8192) (h : 128 ≤ r.val) :
    concatenate S136x8192 0 [⟨S64x8192, u0⟩, ⟨S64x8192, u1⟩, ⟨S8x8192, u2⟩]
        concatenates_S64x8192_S64x8192_S8x8192_S136x8192_d0 (ix2 r q)
      = u2 (ix2 ⟨r.val - 128, by have := r.isLt; omega⟩ q) :=
  concatenate_apply_piece (0 : Fin S136x8192.rank) [⟨S64x8192, u0⟩, ⟨S64x8192, u1⟩, ⟨S8x8192, u2⟩]
    concatenates_S64x8192_S64x8192_S8x8192_S136x8192_d0 (ix2 r q)
    2 (show 2 < 3 by omega) S8x8192 u2 rfl rfl 128 rfl (ix2 ⟨r.val - 128, by have := r.isLt; omega⟩ q)
    (fun b hb => by
      match b with
      | ⟨0, _⟩ => exact absurd (Fin.ext rfl) hb
      | ⟨1, _⟩ => rfl)
    (by show 128 + (r.val - 128) = r.val; omega)

/-! ## The array of ones -/

/-- The bf16 word of 1.0: exponent field 127, significand field 0, so 2⁷ · 2^(127 − 134) = 1. -/
theorem ofBits_one_bf16 : Ideal.ofBits .bf16 0x3F80#16 = 1 := by
  simp [Ideal.ofBits, Ideal.ieee, -EReal.coe_mul]; norm_num

/-- The scalar word of 1.0 broadcast to [8, 8192] reads 1 at every entry. -/
theorem ones_apply (i : S8x8192.Idx) :
    broadcastInDim S8x8192 ![] bcast_S_S8x8192 (constant (F := Ideal) S_ .bf16 0x3F80#16) i = (1 : EReal) := by
  refine (broadcastInDim_apply _ bcast_S_S8x8192 _ i (fun a => a.elim0) (fun a => a.elim0)).trans ?_
  exact ofBits_one_bf16

/-! ## The sums over the four blocks -/

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- The [4, 64, 1] result viewed [4, 64] and summed over its first axis, at b: the initial value plus the sum over the four
    blocks of the result at (nb, b, 0). -/
theorem blocksum64_apply (y : (⟨S4x64x1, .f32⟩ : BufTy).Contents (Elt Ideal)) (b : Fin 64) :
    Host.reduceAdd (F := Ideal) (φ := .f32) (shapeCast S4x64 y shapeCasts_S4x64x1_S4x64)
        (constant (F := Ideal) S_ .f32 0x00000000#32) reducesTo_S4x64_S64_d0 h_S_ (ix1 b)
      = Ideal.ofBits .f32 0x00000000#32 + ∑ nb : Fin 4, y (ix3 nb b (0 : Fin 1)) := by
  simp only [Host.reduceAdd, Ideal.hostReduceAdd_def]
  rw [Ideal.hostReduceAdd_single reducesTo_S4x64_S64_d0 (by decide)]
  refine congrArg₂ (· + ·) rfl (Finset.sum_congr rfl fun nb _ => ?_)
  refine (congrArg (shapeCast S4x64 y shapeCasts_S4x64x1_S4x64) (show _ = ix2 nb b from
    funext fun a => Fin.ext (by match a with | ⟨0, _⟩ => rfl | ⟨1, _⟩ => rfl))).trans ?_
  refine shapeCast_apply y shapeCasts_S4x64x1_S4x64 (ix2 nb b) (ix3 nb b (0 : Fin 1)) ?_
  rw [Shape.rowMajor_val_three, Shape.rowMajor_val_two]
  show (nb.val * 64 + b.val) * 1 + 0 = nb.val * 64 + b.val
  omega

/-- The [4, 1, 1] result viewed [4] and summed, at the scalar's one index: the initial value plus the sum over the four
    blocks of the result at (nb, 0, 0). -/
theorem blocksum1_apply (z : (⟨S4x1x1, .f32⟩ : BufTy).Contents (Elt Ideal)) (i : S_.Idx) :
    Host.reduceAdd (F := Ideal) (φ := .f32) (shapeCast S4 z shapeCasts_S4x1x1_S4)
        (constant (F := Ideal) S_ .f32 0x00000000#32) reducesTo_S4_S_d0 h_S_ i
      = Ideal.ofBits .f32 0x00000000#32 + ∑ nb : Fin 4, z (ix3 nb (0 : Fin 1) (0 : Fin 1)) := by
  simp only [Host.reduceAdd, Ideal.hostReduceAdd_def]
  rw [Ideal.hostReduceAdd_total reducesTo_S4_S_d0 (fun b => b.elim0)]
  refine congrArg₂ (· + ·) rfl ?_
  rw [← Equiv.sum_comp idxEquiv1.symm]
  refine Finset.sum_congr rfl fun nb _ => ?_
  show shapeCast S4 z shapeCasts_S4x1x1_S4 (ix1 nb) = _
  refine shapeCast_apply z shapeCasts_S4x1x1_S4 (ix1 nb) (ix3 nb (0 : Fin 1) (0 : Fin 1)) ?_
  rw [Shape.rowMajor_val_three, Shape.rowMajor_val_one]
  show (nb.val * 1 + 0) * 1 + 0 = nb.val
  omega

/-- The same two sums with the zero word read: the bare sums over the four blocks. -/
theorem blocksum64_apply' (y : (⟨S4x64x1, .f32⟩ : BufTy).Contents (Elt Ideal)) (b : Fin 64) :
    Host.reduceAdd (F := Ideal) (φ := .f32) (shapeCast S4x64 y shapeCasts_S4x64x1_S4x64)
        (constant (F := Ideal) S_ .f32 0x00000000#32) reducesTo_S4x64_S64_d0 h_S_ (ix1 b)
      = ∑ nb : Fin 4, y (ix3 nb b (0 : Fin 1)) := by
  rw [blocksum64_apply, Ideal.ofBits_zero_f32, zero_add]

theorem blocksum1_apply' (z : (⟨S4x1x1, .f32⟩ : BufTy).Contents (Elt Ideal)) (i : S_.Idx) :
    Host.reduceAdd (F := Ideal) (φ := .f32) (shapeCast S4 z shapeCasts_S4x1x1_S4)
        (constant (F := Ideal) S_ .f32 0x00000000#32) reducesTo_S4_S_d0 h_S_ i
      = ∑ nb : Fin 4, z (ix3 nb (0 : Fin 1) (0 : Fin 1)) := by
  rw [blocksum1_apply, Ideal.ofBits_zero_f32, zero_add]

end Cert.KernelIdeal.Pay

end
-- ==== Proof.KI.HostTail.lean ====
/-
  The seventeen host operations after the region, read off the region's final arrays.

  The three result arrays of the region, [4, 64, 1], [4, 64, 1] and [4, 1, 1], are viewed [4, 64], [4, 64] and [4] and
  summed over their four blocks into R, I : [64] and S : a scalar; the last seven operations are
  sqrt (R * R + I * I) / max (S, 1), entry by entry.
-/
import proofs.«114634_j23270132810218_2_alg».proof.Proof.KI.Kit
import proofs.«114634_j23270132810218_2_alg».proof.Proof.HostReads
import Idealize.ShloMosaic.Lib.StableHlo.Run

set_option maxRecDepth 16384

noncomputable section

namespace Cert.KernelIdeal.Val

open Cert.KernelIdeal Cert.KernelIdeal.Gen Cert.KernelIdeal.Fr Cert.KernelIdeal.Pay Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The last seven operations: the modulus of (R, I) over the larger of S and 1, entry by entry. -/
def tailK (R I : (⟨S64, .f32⟩ : BufTy).Contents (Elt Ideal)) (S : (⟨S_, .f32⟩ : BufTy).Contents (Elt Ideal)) :
    (⟨S64, .f32⟩ : BufTy).Contents (Elt Ideal) :=
  Host.divf (F := Ideal) (Host.sqrt (F := Ideal) (addf (mulf R R) (mulf I I)))
    (broadcastInDim S64 ![] bcast_S_S64 (maximumf S (constant (F := Ideal) S_ .f32 0x3F800000#32)))

/-- The tail over any contents of the buffers it reads. -/
theorem tail_after (W : Valuation τ sig (Elt Ideal)) :
    StableHlo.after (hostOps1 (F := Ideal)) W (Proc.devRef .tc main_v21)
      = tailK
          (Host.reduceAdd (F := Ideal) (φ := .f32)
            (shapeCast S4x64 (W (Proc.devRef .tc main_v8_0) : (⟨S4x64x1, .f32⟩ : BufTy).Contents (Elt Ideal)) shapeCasts_S4x64x1_S4x64)
            (constant (F := Ideal) S_ .f32 0x00000000#32) reducesTo_S4x64_S64_d0 h_S_)
          (Host.reduceAdd (F := Ideal) (φ := .f32)
            (shapeCast S4x64 (W (Proc.devRef .tc main_v8_1) : (⟨S4x64x1, .f32⟩ : BufTy).Contents (Elt Ideal)) shapeCasts_S4x64x1_S4x64)
            (constant (F := Ideal) S_ .f32 0x00000000#32) reducesTo_S4x64_S64_d0 h_S_)
          (Host.reduceAdd (F := Ideal) (φ := .f32)
            (shapeCast S4 (W (Proc.devRef .tc main_v8_2) : (⟨S4x1x1, .f32⟩ : BufTy).Contents (Elt Ideal)) shapeCasts_S4x1x1_S4)
            (constant (F := Ideal) S_ .f32 0x00000000#32) reducesTo_S4_S_d0 h_S_) := by
  dsimp only [hostOps1]
  after_results
  rfl

/-- The tail's result after the region: the last seven operations of the three block sums of the region's final result
    arrays. -/
theorem tail_read (dats : (p : Fin 1) → (c : Dev nD) → Dat τ (Elt Ideal) Unit ℕ (UR sig nD τ) ℕ (cfgs p) c) (c : Dev nD) :
    Pipeline.afterTail₀ cfgs dats 0 (V0 m) [hostOps1] c main_v21
      = tailK
          (Host.reduceAdd (F := Ideal) (φ := .f32)
            (shapeCast S4x64 ((dats 0 c).arrAt 4 cfg0.N : (⟨S4x64x1, .f32⟩ : BufTy).Contents (Elt Ideal)) shapeCasts_S4x64x1_S4x64)
            (constant (F := Ideal) S_ .f32 0x00000000#32) reducesTo_S4x64_S64_d0 h_S_)
          (Host.reduceAdd (F := Ideal) (φ := .f32)
            (shapeCast S4x64 ((dats 0 c).arrAt 5 cfg0.N : (⟨S4x64x1, .f32⟩ : BufTy).Contents (Elt Ideal)) shapeCasts_S4x64x1_S4x64)
            (constant (F := Ideal) S_ .f32 0x00000000#32) reducesTo_S4x64_S64_d0 h_S_)
          (Host.reduceAdd (F := Ideal) (φ := .f32)
            (shapeCast S4 ((dats 0 c).arrAt 6 cfg0.N : (⟨S4x1x1, .f32⟩ : BufTy).Contents (Elt Ideal)) shapeCasts_S4x1x1_S4)
            (constant (F := Ideal) S_ .f32 0x00000000#32) reducesTo_S4_S_d0 h_S_) := by
  have h4 := Pipeline.withArrays_arr spec0 launch0.win.arr_inj c (V0 m c) (fun w => (dats 0 c).arrAt w cfg0.N) 4
  have h5 := Pipeline.withArrays_arr spec0 launch0.win.arr_inj c (V0 m c) (fun w => (dats 0 c).arrAt w cfg0.N) 5
  have h6 := Pipeline.withArrays_arr spec0 launch0.win.arr_inj c (V0 m c) (fun w => (dats 0 c).arrAt w cfg0.N) 6
  refine (tail_after (Pipeline.withArrays spec0 c (V0 m c) fun w => (dats 0 c).arrAt w cfg0.N)).trans ?_
  exact congr (congr (congrArg tailK
    (congrArg (fun y : (⟨S4x64x1, .f32⟩ : BufTy).Contents (Elt Ideal) => Host.reduceAdd (F := Ideal) (φ := .f32)
      (shapeCast S4x64 y shapeCasts_S4x64x1_S4x64) (constant (F := Ideal) S_ .f32 0x00000000#32) reducesTo_S4x64_S64_d0 h_S_) h4))
    (congrArg (fun y : (⟨S4x64x1, .f32⟩ : BufTy).Contents (Elt Ideal) => Host.reduceAdd (F := Ideal) (φ := .f32)
      (shapeCast S4x64 y shapeCasts_S4x64x1_S4x64) (constant (F := Ideal) S_ .f32 0x00000000#32) reducesTo_S4x64_S64_d0 h_S_) h5))
    (congrArg (fun y : (⟨S4x1x1, .f32⟩ : BufTy).Contents (Elt Ideal) => Host.reduceAdd (F := Ideal) (φ := .f32)
      (shapeCast S4 y shapeCasts_S4x1x1_S4) (constant (F := Ideal) S_ .f32 0x00000000#32) reducesTo_S4_S_d0 h_S_) h6)

/-- The same over the three final result arrays as variables: the form whose block sums are read at an index by the
    lemmas that read the host's sums over four blocks. -/
theorem tail_read_of (dats : (p : Fin 1) → (c : Dev nD) → Dat τ (Elt Ideal) Unit ℕ (UR sig nD τ) ℕ (cfgs p) c) (c : Dev nD)
    (y4 y5 : (⟨S4x64x1, .f32⟩ : BufTy).Contents (Elt Ideal)) (y6 : (⟨S4x1x1, .f32⟩ : BufTy).Contents (Elt Ideal))
    (h4 : (dats 0 c).arrAt 4 cfg0.N = y4) (h5 : (dats 0 c).arrAt 5 cfg0.N = y5) (h6 : (dats 0 c).arrAt 6 cfg0.N = y6) :
    Pipeline.afterTail₀ cfgs dats 0 (V0 m) [hostOps1] c main_v21
      = tailK
          (Host.reduceAdd (F := Ideal) (φ := .f32) (shapeCast S4x64 y4 shapeCasts_S4x64x1_S4x64)
            (constant (F := Ideal) S_ .f32 0x00000000#32) reducesTo_S4x64_S64_d0 h_S_)
          (Host.reduceAdd (F := Ideal) (φ := .f32) (shapeCast S4x64 y5 shapeCasts_S4x64x1_S4x64)
            (constant (F := Ideal) S_ .f32 0x00000000#32) reducesTo_S4x64_S64_d0 h_S_)
          (Host.reduceAdd (F := Ideal) (φ := .f32) (shapeCast S4 y6 shapeCasts_S4x1x1_S4)
            (constant (F := Ideal) S_ .f32 0x00000000#32) reducesTo_S4_S_d0 h_S_) := by
  subst h4 h5 h6
  exact tail_read m dats c

end Cert.KernelIdeal.Val

end
-- ==== Proof.KI.HostPrefix.lean ====
/-
  What the region finds in the arrays its input windows cut, as terms of the launch memory.

  Nine host operations run before the region: the cosine and the sine of the first phase array, each narrowed to
  bf16, the cosine and the sine of the second phase array, the scalar word of 1.0 and its broadcast to [8, 8192], and
  the concatenation along the rows of the two narrowed arrays and the block of ones into the [136, 8192] stacked left
  operand. So the second input's windows read its cosine and sine, and the stacked operand reads, on the extended
  reals where narrowing is the identity, the cosine of the first input in rows 0..63, its sine in rows 64..127, and
  one in row 128.
-/
import proofs.«114634_j23270132810218_2_alg».proof.Proof.KI.Kit
import proofs.«114634_j23270132810218_2_alg».proof.Proof.HostReads
import Idealize.ShloMosaic.Lib.StableHlo.Run
import Idealize.ShloMosaic.Lib.ValueIdx

noncomputable section

namespace Cert.KernelIdeal.Val

open Cert.KernelIdeal Cert.KernelIdeal.Gen Cert.KernelIdeal.Fr Idealize.ShloMosaic Idealize.ShloMosaic.TcCoe
  Idealize.ShloMosaic.ValueIdx Idealize.SL.Sem

variable (m : (ℓ : Loc nD τ sig) → Buf (Elt Ideal) ℓ)

/-- A three-operand operation's result at its own result buffer, each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! ## The arrays -/

/-- Window 1's array: the cosine of the second phase array. -/
theorem V_v4 (c : Dev nD) :
    (V m c main_v4 : (⟨S64x8192, .f32⟩ : BufTy).Contents (Elt Ideal))
      = Host.cos (F := Ideal) (φ := .f32) (s := S64x8192) (m ((c : Thread nD τ).loc main_arg1)) := by
  show StableHlo.after hostOps0 (fun b => m (c, b)) (Proc.devRef .tc main_v4) = _
  after_results
  all_goals rfl

/-- Window 2's array: the sine of the second phase array. -/
theorem V_v5 (c : Dev nD) :
    (V m c main_v5 : (⟨S64x8192, .f32⟩ : BufTy).Contents (Elt Ideal))
      = Host.sin (F := Ideal) (φ := .f32) (s := S64x8192) (m ((c : Thread nD τ).loc main_arg1)) := by
  show StableHlo.after hostOps0 (fun b => m (c, b)) (Proc.devRef .tc main_v5) = _
  after_results
  all_goals rfl

/-- Window 0's array: the narrowed cosine and sine of the first phase array and the block of ones, row ranges end to end. -/
theorem V_v7 (c : Dev nD) :
    (V m c main_v7 : (⟨S136x8192, .bf16⟩ : BufTy).Contents (Elt Ideal))
      = concatenate S136x8192 0
          [⟨S64x8192, truncf .bf16 (Host.cos (F := Ideal) (φ := .f32) (s := S64x8192) (m ((c : Thread nD τ).loc main_arg0))) bitsLt_bf16_f32⟩,
           ⟨S64x8192, truncf .bf16 (Host.sin (F := Ideal) (φ := .f32) (s := S64x8192) (m ((c : Thread nD τ).loc main_arg0))) bitsLt_bf16_f32⟩,
           ⟨S8x8192, broadcastInDim S8x8192 ![] bcast_S_S8x8192 (constant (F := Ideal) S_ .bf16 0x3F80#16)⟩]
          concatenates_S64x8192_S64x8192_S8x8192_S136x8192_d0 := by
  show StableHlo.after hostOps0 (fun b => m (c, b)) (Proc.devRef .tc main_v7) = _
  simp only [StableHlo.after_cons, StableHlo.after_nil]
  rw [nary3_result]
  repeat (first
    | rw [StableHlo.nullary_result] | rw [StableHlo.unary_result]
    | (rw [StableHlo.nullary_result_ne]; rotate_left; decide)
    | (rw [StableHlo.unary_result_ne]; rotate_left; decide))
  all_goals rfl

/-! ## The arrays at an index -/

/-- The second input's cosine array at `(b, q)`. -/
theorem V_v4_apply (c : Dev nD) (b : Fin 64) (q : Fin 8192) :
    V m c main_v4 (ix2 b q)
      = FloatOps.hostUnary (F := Ideal) (φ := .f32) .cos (m ((c : Thread nD τ).loc main_arg1) (ix2 b q)) :=
  congrFun (V_v4 m c) (ix2 b q)

/-- The second input's sine array at `(b, q)`. -/
theorem V_v5_apply (c : Dev nD) (b : Fin 64) (q : Fin 8192) :
    V m c main_v5 (ix2 b q)
      = FloatOps.hostUnary (F := Ideal) (φ := .f32) .sin (m ((c : Thread nD τ).loc main_arg1) (ix2 b q)) :=
  congrFun (V_v5 m c) (ix2 b q)

/-- Row `b` of the stacked operand, `b < 64`: the cosine of the first input. -/
theorem V_v7_cos (c : Dev nD) (b : Fin 64) (q : Fin 8192) :
    V m c main_v7 (ix2 (⟨b.val, by have := b.isLt; omega⟩ : Fin 136) q)
      = FloatOps.hostUnary (F := Ideal) (φ := .f32) .cos (m ((c : Thread nD τ).loc main_arg0) (ix2 b q)) := by
  refine (congrFun (V_v7 m c) _).trans ?_
  refine (Cert.KernelIdeal.Pay.concat_apply_lo _ _ _ _ q b.isLt).trans ?_
  rfl

/-- Row `64 + b` of the stacked operand: the sine of the first input. -/
theorem V_v7_sin (c : Dev nD) (b : Fin 64) (q : Fin 8192) :
    V m c main_v7 (ix2 (⟨64 + b.val, by have := b.isLt; omega⟩ : Fin 136) q)
      = FloatOps.hostUnary (F := Ideal) (φ := .f32) .sin (m ((c : Thread nD τ).loc main_arg0) (ix2 b q)) := by
  refine (congrFun (V_v7 m c) _).trans ?_
  refine (Cert.KernelIdeal.Pay.concat_apply_mid _ _ _ _ q (Nat.le_add_right 64 b.val)
    (by show 64 + b.val < 128; have := b.isLt; omega)).trans ?_
  have hb : (⟨64 + b.val - 64, by have := b.isLt; omega⟩ : Fin 64) = b := Fin.ext (by show 64 + b.val - 64 = b.val; omega)
  rw [hb]
  rfl

/-- Row 128 of the stacked operand: one. -/
theorem V_v7_one (c : Dev nD) (q : Fin 8192) :
    V m c main_v7 (ix2 (⟨128, by omega⟩ : Fin 136) q) = (1 : EReal) := by
  refine (congrFun (V_v7 m c) _).trans ?_
  refine (Cert.KernelIdeal.Pay.concat_apply_hi _ _ _ _ q (Nat.le_refl 128)).trans ?_
  exact Cert.KernelIdeal.Pay.ones_apply _

end Cert.KernelIdeal.Val

end
-- ==== Proof.RefOpen.lean ====
/-
  The reference program's run and its operations read one at a time at an index: this module only brings the
  two generated readings of the reference into scope for the modules that state what the reference computes.
-/
import proofs.«114634_j23270132810218_2_alg».proof.Proof.Gen.ReferenceIdeal.Read
-- ==== Proof.RefValue.lean ====
/-
  What the reference program computes, read at an index, on the extended reals.

  With `C0 b q`, `S0 b q` the cosine and sine of the first input at `(b, q)`, `C1 b j`, `S1 b j` those of the second
  input at `(b, j)`, and `Mh q j` the mask entry at `(q, j)` read as a signed integer:

  * the real part at `b` is `0 + Σ_j ((Σ_q C0 b q · Mh q j) · C1 b j + (Σ_q S0 b q · Mh q j) · S1 b j)`;
  * the imaginary part at `b` is `0 + Σ_j ((Σ_q S0 b q · Mh q j) · C1 b j − (Σ_q C0 b q · Mh q j) · S1 b j)`;
  * the mask total is `0 + Σ over all pairs of the mask entries`;

  (`0` standing for the value of the zero word) and the program's result is one fixed function — the square root of
  the sum of the two squares, divided by the larger of the total and one — of these three arrays.
-/
import proofs.«114634_j23270132810218_2_alg».proof.Proof.RefOpen
import proofs.«114634_j23270132810218_2_alg».proof.Proof.PlvAlgebra

noncomputable section

namespace Cert.ReferenceIdeal.RefValue

open Cert.ReferenceIdeal Cert.ReferenceIdeal.Gen Cert.ReferenceIdeal.Read Idealize.ShloMosaic
  Idealize.ShloMosaic.ValueIdx Idealize.SL.Sem

/-! ## The index functions of the reference's readings, by coordinates -/

/-- Row `b`, column `k` of the summed array. -/
theorem idx_v10_ix (b : Fin 64) (k : Fin 8192) : idx_main_v10 (ix1 b) k = ix2 b k :=
  funext fun a => Fin.ext (by match a with | ⟨0, _⟩ => rfl | ⟨1, _⟩ => rfl)

/-- The same for the second sum. -/
theorem idx_v14_ix (b : Fin 64) (k : Fin 8192) : idx_main_v14 (ix1 b) k = ix2 b k :=
  funext fun a => Fin.ext (by match a with | ⟨0, _⟩ => rfl | ⟨1, _⟩ => rfl)

/-- The left operand of the first product at `(b, j)`, contraction position `k`: row `b`, column `k`. -/
theorem lidx_v5_ix (b : Fin 64) (j k : Fin 8192) : lidx_main_v5 (ix2 b j) k = ix2 b k :=
  funext fun a => Fin.ext (by match a with | ⟨0, _⟩ => rfl | ⟨1, _⟩ => rfl)

/-- Its right operand: row `k`, column `j`. -/
theorem ridx_v5_ix (b : Fin 64) (j k : Fin 8192) : ridx_main_v5 (ix2 b j) k = ix2 k j :=
  funext fun a => Fin.ext (by match a with | ⟨0, _⟩ => rfl | ⟨1, _⟩ => rfl)

/-- The same for the second product. -/
theorem lidx_v6_ix (b : Fin 64) (j k : Fin 8192) : lidx_main_v6 (ix2 b j) k = ix2 b k :=
  funext fun a => Fin.ext (by match a with | ⟨0, _⟩ => rfl | ⟨1, _⟩ => rfl)

theorem ridx_v6_ix (b : Fin 64) (j k : Fin 8192) : ridx_main_v6 (ix2 b j) k = ix2 k j :=
  funext fun a => Fin.ext (by match a with | ⟨0, _⟩ => rfl | ⟨1, _⟩ => rfl)

/-! ## The two matrix products at an index -/

/-- The cosine array times the mask, at `(b, j)`. -/
theorem val_main_v5_ix (x0 : (⟨S64x8192, .f32⟩ : BufTy).Contents (Elt Ideal))
    (x2 : (⟨S8192x8192, .i32⟩ : BufTy).Contents (Elt Ideal)) (b : Fin 64) (j : Fin 8192) :
    val_main_v5 (F := Ideal) x0 x2 (ix2 b j)
      = (∑ q : Fin 8192, FloatOps.hostUnary (F := Ideal) (φ := .f32) .cos (x0 (ix2 b q))
          * (((x2 (ix2 q j)).toInt : ℝ) : EReal) : EReal) := by
  rw [val_main_v5_apply]
  refine Finset.sum_congr rfl fun q _ => ?_
  rw [lidx_v5_ix, ridx_v5_ix]
  rfl

/-- The sine array times the mask, at `(b, j)`. -/
theorem val_main_v6_ix (x0 : (⟨S64x8192, .f32⟩ : BufTy).Contents (Elt Ideal))
    (x2 : (⟨S8192x8192, .i32⟩ : BufTy).Contents (Elt Ideal)) (b : Fin 64) (j : Fin 8192) :
    val_main_v6 (F := Ideal) x0 x2 (ix2 b j)
      = (∑ q : Fin 8192, FloatOps.hostUnary (F := Ideal) (φ := .f32) .sin (x0 (ix2 b q))
          * (((x2 (ix2 q j)).toInt : ℝ) : EReal) : EReal) := by
  rw [val_main_v6_apply]
  refine Finset.sum_congr rfl fun q _ => ?_
  rw [lidx_v6_ix, ridx_v6_ix]
  rfl

/-! ## The three sums -/

/-- The real part at `b`. -/
theorem val_main_v10_ix (x0 x1 : (⟨S64x8192, .f32⟩ : BufTy).Contents (Elt Ideal))
    (x2 : (⟨S8192x8192, .i32⟩ : BufTy).Contents (Elt Ideal)) (b : Fin 64) :
    val_main_v10 (F := Ideal) x0 x1 x2 (ix1 b)
      = (Ideal.ofBits .f32 0x00000000#32 + ∑ j : Fin 8192,
          ((∑ q : Fin 8192, FloatOps.hostUnary (F := Ideal) (φ := .f32) .cos (x0 (ix2 b q))
                * (((x2 (ix2 q j)).toInt : ℝ) : EReal))
              * FloatOps.hostUnary (F := Ideal) (φ := .f32) .cos (x1 (ix2 b j))
            + (∑ q : Fin 8192, FloatOps.hostUnary (F := Ideal) (φ := .f32) .sin (x0 (ix2 b q))
                * (((x2 (ix2 q j)).toInt : ℝ) : EReal))
              * FloatOps.hostUnary (F := Ideal) (φ := .f32) .sin (x1 (ix2 b j))) : EReal) := by
  rw [val_main_v10_apply]
  refine congrArg₂ (· + ·) rfl (Finset.sum_congr rfl fun j _ => ?_)
  rw [idx_v10_ix, val_main_v9_apply, val_main_v7_apply, val_main_v8_apply, val_main_v5_ix, val_main_v6_ix]
  rfl

/-- The imaginary part at `b`. -/
theorem val_main_v14_ix (x0 x1 : (⟨S64x8192, .f32⟩ : BufTy).Contents (Elt Ideal))
    (x2 : (⟨S8192x8192, .i32⟩ : BufTy).Contents (Elt Ideal)) (b : Fin 64) :
    val_main_v14 (F := Ideal) x0 x1 x2 (ix1 b)
      = (Ideal.ofBits .f32 0x00000000#32 + ∑ j : Fin 8192,
          ((∑ q : Fin 8192, FloatOps.hostUnary (F := Ideal) (φ := .f32) .sin (x0 (ix2 b q))
                * (((x2 (ix2 q j)).toInt : ℝ) : EReal))
              * FloatOps.hostUnary (F := Ideal) (φ := .f32) .cos (x1 (ix2 b j))
            - (∑ q : Fin 8192, FloatOps.hostUnary (F := Ideal) (φ := .f32) .cos (x0 (ix2 b q))
                * (((x2 (ix2 q j)).toInt : ℝ) : EReal))
              * FloatOps.hostUnary (F := Ideal) (φ := .f32) .sin (x1 (ix2 b j))) : EReal) := by
  rw [val_main_v14_apply]
  refine congrArg₂ (· + ·) rfl (Finset.sum_congr rfl fun j _ => ?_)
  rw [idx_v14_ix, val_main_v13_apply, val_main_v11_apply, val_main_v12_apply, val_main_v5_ix, val_main_v6_ix]
  rfl

/-- The mask total. -/
theorem val_main_v15_ix (x2 : (⟨S8192x8192, .i32⟩ : BufTy).Contents (Elt Ideal)) (i : S_.Idx) :
    val_main_v15 (F := Ideal) x2 i
      = (Ideal.ofBits .f32 0x00000000#32 + ∑ idx : S8192x8192.Idx, (((x2 idx).toInt : ℝ) : EReal) : EReal) := by
  rw [val_main_v15_apply]
  rfl

/-! ## The result as a function of the three sums -/

/-- The square root of the sum of the squares of `R` and `I`, divided by the larger of `S` and one. -/
def tail (R I : (⟨S64, .f32⟩ : BufTy).Contents (Elt Ideal)) (S : (⟨S_, .f32⟩ : BufTy).Contents (Elt Ideal)) :
    (⟨S64, .f32⟩ : BufTy).Contents (Elt Ideal) :=
  Host.divf (F := Ideal) (Host.sqrt (F := Ideal) (addf (mulf R R) (mulf I I)))
    (broadcastInDim S64 ![] bcast_S_S64 (maximumf S (constant (F := Ideal) S_ .f32 0x3F800000#32)))

/-- The reference's result is that function of its real part, imaginary part and mask total. -/
theorem val_main_v22_eq_tail (x0 x1 : (⟨S64x8192, .f32⟩ : BufTy).Contents (Elt Ideal))
    (x2 : (⟨S8192x8192, .i32⟩ : BufTy).Contents (Elt Ideal)) :
    val_main_v22 (F := Ideal) x0 x1 x2
      = tail (val_main_v10 (F := Ideal) x0 x1 x2) (val_main_v14 (F := Ideal) x0 x1 x2) (val_main_v15 (F := Ideal) x2) :=
  rfl

end Cert.ReferenceIdeal.RefValue

end
-- ==== Proof.KI.Regroup.lean ====
/-
  The kernel's per-tile output entries, summed over the four column tiles, are the reference's three quantities.

  For a column tile nb and a column j of it, the entry (r, j) of the tile's finished accumulator is the sum over the
  whole contraction axis of the stacked operand's row r against the mask's column nb*2048 + j. Row b of the stacked
  operand is the cosine of the first phase array, row 64 + b its sine, row 128 is one, and the second input's blocks
  are its cosine and sine arrays; so each summand over (nb, j) is the reference's summand at column nb*2048 + j, and
  a sum over the four tiles and the 2048 columns of a tile is the sum over all 8192 columns.
-/
import proofs.«114634_j23270132810218_2_alg».proof.Proof.KI.Accum
import proofs.«114634_j23270132810218_2_alg».proof.Proof.KI.HostPrefix
import proofs.«114634_j23270132810218_2_alg».proof.Proof.PlvAlgebra
import proofs.«114634_j23270132810218_2_alg».proof.Proof.RefValue

noncomputable section

namespace Cert.KernelIdeal.Val

open Cert.KernelIdeal Cert.KernelIdeal.Gen Cert.KernelIdeal.Fr Idealize.ShloMosaic Idealize.ShloMosaic.TcCoe
  Idealize.ShloMosaic.ValueIdx Idealize.SL.Sem
open Cert.Plv

variable (m : (ℓ : Loc nD τ sig) → Buf (Elt Ideal) ℓ) (c : Dev nD)

/-! ## The kernel's operands as functions of the launch memory -/

/-- The mask's entry as the region finds it is the launched mask's entry. -/
theorem maskR_eq (q j : Fin 8192) :
    maskR m c q j = (((m ((c : Thread nD τ).loc main_arg2) (ix2 q j)).toInt : ℝ) : EReal) := by
  unfold maskR
  rw [V_main_arg2 m c]

/-- Row `b` of the stacked operand against the mask: the cosine of the first input times the mask's entry. -/
theorem term_cos (nb : ℕ) (hnb : nb < 4) (b : Fin 64) (hb : b.val < 136) (j : Fin 2048) (q : Fin 8192) :
    term m c nb hnb ⟨b.val, hb⟩ j q
      = FloatOps.hostUnary (F := Ideal) (φ := .f32) .cos (m ((c : Thread nD τ).loc main_arg0) (ix2 b q))
          * (((m ((c : Thread nD τ).loc main_arg2) (ix2 q (colIdx nb hnb j))).toInt : ℝ) : EReal) := by
  unfold term casa
  rw [maskR_eq, V_v7_cos m c b q]

/-- Row `64 + b`: the sine of the first input times the mask's entry. -/
theorem term_sin (nb : ℕ) (hnb : nb < 4) (b : Fin 64) (hb : 64 + b.val < 136) (j : Fin 2048) (q : Fin 8192) :
    term m c nb hnb ⟨64 + b.val, hb⟩ j q
      = FloatOps.hostUnary (F := Ideal) (φ := .f32) .sin (m ((c : Thread nD τ).loc main_arg0) (ix2 b q))
          * (((m ((c : Thread nD τ).loc main_arg2) (ix2 q (colIdx nb hnb j))).toInt : ℝ) : EReal) := by
  unfold term casa
  rw [maskR_eq, V_v7_sin m c b q]

/-- Row 128: the mask's entry. -/
theorem term_one (nb : ℕ) (hnb : nb < 4) (j : Fin 2048) (q : Fin 8192) :
    term m c nb hnb (⟨128, by omega⟩ : Fin 136) j q
      = (((m ((c : Thread nD τ).loc main_arg2) (ix2 q (colIdx nb hnb j))).toInt : ℝ) : EReal) := by
  unfold term casa
  rw [maskR_eq, V_v7_one m c q, one_mul]

/-- The second input's cosine block entry. -/
theorem cbR_eq (b : Fin 64) (j : Fin 8192) :
    cbR m c b j = FloatOps.hostUnary (F := Ideal) (φ := .f32) .cos (m ((c : Thread nD τ).loc main_arg1) (ix2 b j)) := by
  unfold cbR
  exact V_v4_apply m c b j

/-- The second input's sine block entry. -/
theorem sbR_eq (b : Fin 64) (j : Fin 8192) :
    sbR m c b j = FloatOps.hostUnary (F := Ideal) (φ := .f32) .sin (m ((c : Thread nD τ).loc main_arg1) (ix2 b j)) := by
  unfold sbR
  exact V_v5_apply m c b j

/-- Column `j` of tile `nb` is position `j` of block `nb`. -/
theorem colIdx_eq (nb : Fin 4) (j : Fin 2048) : colIdx nb.val nb.isLt j = ⟨nb.val * 2048 + j.val, blk_lt nb j⟩ := rfl

/-! ## The three totals -/

/-- The real parts of the four tiles add up to the reference's real part. -/
theorem real_total (b : Fin 64) :
    (Ideal.ofBits .f32 0x00000000#32 + ∑ nb : Fin 4, ∑ j : Fin 2048,
        ((∑ q : Fin 8192, term m c nb.val nb.isLt ⟨b.val, by have := b.isLt; omega⟩ j q) * cbR m c b (colIdx nb.val nb.isLt j)
          + (∑ q : Fin 8192, term m c nb.val nb.isLt ⟨64 + b.val, by have := b.isLt; omega⟩ j q) * sbR m c b (colIdx nb.val nb.isLt j)) : EReal)
      = Cert.ReferenceIdeal.Read.val_main_v10 (F := Ideal)
          (m ((c : Thread nD τ).loc main_arg0)) (m ((c : Thread nD τ).loc main_arg1)) (m ((c : Thread nD τ).loc main_arg2)) (ix1 b) := by
  refine Eq.trans ?_ (Cert.ReferenceIdeal.RefValue.val_main_v10_ix _ _ _ b).symm
  refine congrArg (Ideal.ofBits .f32 0x00000000#32 + ·) ?_
  refine Eq.trans ?_ (sum_blocks (fun J : Fin 8192 =>
    ((∑ q : Fin 8192, FloatOps.hostUnary (F := Ideal) (φ := .f32) .cos (m ((c : Thread nD τ).loc main_arg0) (ix2 b q))
          * (((m ((c : Thread nD τ).loc main_arg2) (ix2 q J)).toInt : ℝ) : EReal))
        * FloatOps.hostUnary (F := Ideal) (φ := .f32) .cos (m ((c : Thread nD τ).loc main_arg1) (ix2 b J))
      + (∑ q : Fin 8192, FloatOps.hostUnary (F := Ideal) (φ := .f32) .sin (m ((c : Thread nD τ).loc main_arg0) (ix2 b q))
          * (((m ((c : Thread nD τ).loc main_arg2) (ix2 q J)).toInt : ℝ) : EReal))
        * FloatOps.hostUnary (F := Ideal) (φ := .f32) .sin (m ((c : Thread nD τ).loc main_arg1) (ix2 b J)) : EReal)))
  refine Finset.sum_congr rfl fun nb _ => Finset.sum_congr rfl fun j _ => ?_
  rw [cbR_eq, sbR_eq, colIdx_eq]
  refine congrArg₂ (· + ·) (congrArg (· * _) (Finset.sum_congr rfl fun q _ => ?_))
    (congrArg (· * _) (Finset.sum_congr rfl fun q _ => ?_))
  · exact term_cos m c nb.val nb.isLt b _ j q
  · exact term_sin m c nb.val nb.isLt b _ j q

/-- The imaginary parts of the four tiles add up to the reference's imaginary part. -/
theorem imag_total (b : Fin 64) :
    (Ideal.ofBits .f32 0x00000000#32 + ∑ nb : Fin 4, ∑ j : Fin 2048,
        ((∑ q : Fin 8192, term m c nb.val nb.isLt ⟨64 + b.val, by have := b.isLt; omega⟩ j q) * cbR m c b (colIdx nb.val nb.isLt j)
          - (∑ q : Fin 8192, term m c nb.val nb.isLt ⟨b.val, by have := b.isLt; omega⟩ j q) * sbR m c b (colIdx nb.val nb.isLt j)) : EReal)
      = Cert.ReferenceIdeal.Read.val_main_v14 (F := Ideal)
          (m ((c : Thread nD τ).loc main_arg0)) (m ((c : Thread nD τ).loc main_arg1)) (m ((c : Thread nD τ).loc main_arg2)) (ix1 b) := by
  refine Eq.trans ?_ (Cert.ReferenceIdeal.RefValue.val_main_v14_ix _ _ _ b).symm
  refine congrArg (Ideal.ofBits .f32 0x00000000#32 + ·) ?_
  refine Eq.trans ?_ (sum_blocks (fun J : Fin 8192 =>
    ((∑ q : Fin 8192, FloatOps.hostUnary (F := Ideal) (φ := .f32) .sin (m ((c : Thread nD τ).loc main_arg0) (ix2 b q))
          * (((m ((c : Thread nD τ).loc main_arg2) (ix2 q J)).toInt : ℝ) : EReal))
        * FloatOps.hostUnary (F := Ideal) (φ := .f32) .cos (m ((c : Thread nD τ).loc main_arg1) (ix2 b J))
      - (∑ q : Fin 8192, FloatOps.hostUnary (F := Ideal) (φ := .f32) .cos (m ((c : Thread nD τ).loc main_arg0) (ix2 b q))
          * (((m ((c : Thread nD τ).loc main_arg2) (ix2 q J)).toInt : ℝ) : EReal))
        * FloatOps.hostUnary (F := Ideal) (φ := .f32) .sin (m ((c : Thread nD τ).loc main_arg1) (ix2 b J)) : EReal)))
  refine Finset.sum_congr rfl fun nb _ => Finset.sum_congr rfl fun j _ => ?_
  rw [cbR_eq, sbR_eq, colIdx_eq]
  refine congrArg₂ (· - ·) (congrArg (· * _) (Finset.sum_congr rfl fun q _ => ?_))
    (congrArg (· * _) (Finset.sum_congr rfl fun q _ => ?_))
  · exact term_sin m c nb.val nb.isLt b _ j q
  · exact term_cos m c nb.val nb.isLt b _ j q

/-- The mask counts of the four tiles add up to the reference's mask total. -/
theorem mask_total' (i : Cert.ReferenceIdeal.S_.Idx) :
    (Ideal.ofBits .f32 0x00000000#32 + ∑ nb : Fin 4, ∑ j : Fin 2048, ∑ q : Fin 8192,
        term m c nb.val nb.isLt (⟨128, by omega⟩ : Fin 136) j q : EReal)
      = Cert.ReferenceIdeal.Read.val_main_v15 (F := Ideal) (m ((c : Thread nD τ).loc main_arg2)) i := by
  refine Eq.trans ?_ (Cert.ReferenceIdeal.RefValue.val_main_v15_ix _ i).symm
  refine congrArg (Ideal.ofBits .f32 0x00000000#32 + ·) ?_
  refine Eq.trans ?_ (sum_idx_blocks (fun idx : (⟨2, ![8192, 8192]⟩ : Shape).Idx =>
    ((((m ((c : Thread nD τ).loc main_arg2) idx).toInt : ℝ) : EReal))))
  refine Finset.sum_congr rfl fun nb _ => Finset.sum_congr rfl fun j _ => Finset.sum_congr rfl fun q _ => ?_
  exact term_one m c nb.val nb.isLt j q

end Cert.KernelIdeal.Val

end
-- ==== Proof.KI.KernelValue.lean ====
/-
  The kernel program's result, as a value.

  After the run the host suffix folds the three output arrays over the four column tiles and applies the last seven
  operations. Entry b of the first folded array is zero plus, over the four tiles, the tile's block entry, which is
  a sum over the tile's 2048 columns; together that is the sum over all 8192 columns the reference forms, with the
  same summand: the full contraction against the cosine rows times the second array's cosine plus the same against
  the sine rows times its sine. The second array is the same with the roles crossed and a subtraction, and the third
  is the sum of every entry of the mask, since the stacked operand's row 128 is a row of ones. So the three folded
  quantities are the reference's three, and the result is the shared last seven operations of them.
-/
import proofs.«114634_j23270132810218_2_alg».proof.Proof.KI.Arrays
import proofs.«114634_j23270132810218_2_alg».proof.Proof.KI.HostTail
import proofs.«114634_j23270132810218_2_alg».proof.Proof.KI.Regroup

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.KernelIdeal.Pay Idealize.ShloMosaic.ValueIdx

local notation "𝕄" => MT nD τ sig Unit (Elt Ideal) ℕ (UR sig nD τ) ℕ

variable (m : (ℓ : Loc nD τ sig) → Buf (Elt Ideal) ℓ) (c : Dev nD)

open Cert.Plv

/-- The three output arrays after the run, typed as the host suffix reads them. -/
def Y4 : (⟨S4x64x1, .f32⟩ : BufTy).Contents (Elt Ideal) := G4 m c
def Y5 : (⟨S4x64x1, .f32⟩ : BufTy).Contents (Elt Ideal) := G5 m c
def Y6 : (⟨S4x1x1, .f32⟩ : BufTy).Contents (Elt Ideal) := G6 m c

/-- The three folded quantities. -/
def Rtot : (⟨S64, .f32⟩ : BufTy).Contents (Elt Ideal) :=
  Host.reduceAdd (F := Ideal) (φ := .f32) (shapeCast S4x64 (Y4 m c) shapeCasts_S4x64x1_S4x64) (constant (F := Ideal) S_ .f32 0x00000000#32) reducesTo_S4x64_S64_d0 h_S_
def Itot : (⟨S64, .f32⟩ : BufTy).Contents (Elt Ideal) :=
  Host.reduceAdd (F := Ideal) (φ := .f32) (shapeCast S4x64 (Y5 m c) shapeCasts_S4x64x1_S4x64) (constant (F := Ideal) S_ .f32 0x00000000#32) reducesTo_S4x64_S64_d0 h_S_
def Stot : (⟨S_, .f32⟩ : BufTy).Contents (Elt Ideal) :=
  Host.reduceAdd (F := Ideal) (φ := .f32) (shapeCast S4 (Y6 m c) shapeCasts_S4x1x1_S4) (constant (F := Ideal) S_ .f32 0x00000000#32) reducesTo_S4_S_d0 h_S_

/-- What the host suffix leaves in the result buffer. -/
theorem result_eq : Pipeline.afterTail₀ cfgs (dats m) 0 (V0 m) [hostOps1] c main_v21 = tailK (Rtot m c) (Itot m c) (Stot m c) :=
  tail_read_of m (dats m) c (Y4 m c) (Y5 m c) (Y6 m c) (final4 m c) (final5 m c) (final6 m c)

/-- The first folded quantity is the reference's real part. -/
theorem Rtot_eq : Rtot m c = Cert.ReferenceIdeal.Read.val_main_v10 (F := Ideal) (m ((c : Thread nD τ).loc main_arg0)) (m ((c : Thread nD τ).loc main_arg1)) (m ((c : Thread nD τ).loc main_arg2)) := by
  funext i
  obtain ⟨b, rfl⟩ : ∃ b : Fin 64, i = ix1 b := ⟨i 0, eq_ix1 i⟩
  refine (blocksum64_apply (Y4 m c) b).trans ?_
  refine Eq.trans ?_ (real_total m c b)
  refine congrArg (Ideal.ofBits .f32 0x00000000#32 + ·) (Finset.sum_congr rfl fun nb _ => ?_)
  exact out4_entry m c nb.val nb.isLt b

/-- The second is its imaginary part. -/
theorem Itot_eq : Itot m c = Cert.ReferenceIdeal.Read.val_main_v14 (F := Ideal) (m ((c : Thread nD τ).loc main_arg0)) (m ((c : Thread nD τ).loc main_arg1)) (m ((c : Thread nD τ).loc main_arg2)) := by
  funext i
  obtain ⟨b, rfl⟩ : ∃ b : Fin 64, i = ix1 b := ⟨i 0, eq_ix1 i⟩
  refine (blocksum64_apply (Y5 m c) b).trans ?_
  refine Eq.trans ?_ (imag_total m c b)
  refine congrArg (Ideal.ofBits .f32 0x00000000#32 + ·) (Finset.sum_congr rfl fun nb _ => ?_)
  exact out5_entry m c nb.val nb.isLt b

/-- The third is the mask's total. -/
theorem Stot_eq : Stot m c = Cert.ReferenceIdeal.Read.val_main_v15 (F := Ideal) (m ((c : Thread nD τ).loc main_arg2)) := by
  funext i
  refine (blocksum1_apply (Y6 m c) i).trans ?_
  refine Eq.trans ?_ (mask_total' m c i)
  refine congrArg (Ideal.ofBits .f32 0x00000000#32 + ·) (Finset.sum_congr rfl fun nb _ => ?_)
  exact out6_entry m c nb.val nb.isLt

end Cert.KernelIdeal.Val

namespace Cert.KernelIdeal.Val

open Idealize.ShloMosaic Idealize.ShloMosaic.TcCoe Idealize.SL.Sem Cert.KernelIdeal Cert.KernelIdeal.Gen Cert.KernelIdeal.Fr

/-- THE RUN, READ: every weakly fair execution of @main terminates with the result buffer at the last seven operations
    of the three folded quantities, and the three argument arrays as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = tailK (Rtot m c) (Itot m c) (Stot m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v21 (Pipeline.mem_restRefs_of main_v21 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 3).trans (((dats m 0 c).arrAt_in 3 rfl _).trans ((A_eq m c 3).trans (V_main_arg2 m c)))⟩) (run_main m ρ)

end Cert.KernelIdeal.Val

end
-- ==== Proof.lean ====
/-
  The certificate of the masked phase-locking kernel against its reference.

  The kernel forms, for two banks of oscillator phases a and b and a 0/1 coupling mask M, the quantity
  sqrt(R*R + I*I) / max(sum M, 1) per batch row, where R and I are the sums over coupled pairs (i, j) of
  cos(a_i - b_j) and sin(a_i - b_j), written through the addition formulas as products of cosines and sines with two
  matrix products against M. It stacks the cosines, the sines and a row of ones into one left operand, so that one
  matrix product per tile gives both products and the mask's column counts; it cuts the contraction axis into eight
  chunks accumulated in scratch and the mask's columns into four tiles whose partial results the host adds up. Over
  the extended reals, where every float operation is exact and a change of format is the identity, this differs from
  the reference only by the grouping of finite sums and by 1 * x = x, so the two results are equal for every input:
  no finiteness of the inputs is used.

  The three frames: the two kernel programs (as printed and idealized) run to the end, fault nowhere and leave their
  arguments as launched, by the frame of the region (one chain of modules per program); the reference's
  frame is its run with the result dropped. The idealization rewrote nothing, so the preservation claim is trivial.
-/
import proofs.«114634_j23270132810218_2_alg».proof.Defs
import proofs.«114634_j23270132810218_2_alg».proof.Proof.Gen.Kernel
import proofs.«114634_j23270132810218_2_alg».proof.Proof.Gen.KernelIdeal
import proofs.«114634_j23270132810218_2_alg».proof.Proof.Gen.ReferenceIdeal
import proofs.«114634_j23270132810218_2_alg».proof.Proof.Gen.Pre_finite_inputs
import proofs.«114634_j23270132810218_2_alg».proof.Proof.Gen.ReferenceIdeal.Run
import proofs.«114634_j23270132810218_2_alg».proof.Proof.K.Frame
import proofs.«114634_j23270132810218_2_alg».proof.Proof.KI.Frame
import proofs.«114634_j23270132810218_2_alg».proof.Proof.KI.KernelValue
import proofs.«114634_j23270132810218_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The shared last seven operations, spelt in either program's vocabulary, are one function. -/
theorem tail_same : @Cert.ReferenceIdeal.RefValue.tail = @Cert.KernelIdeal.Val.tailK := rfl

/-- From memories agreeing on the arguments both idealized programs end with the same result: the kernel's at the
    last seven operations of its three folded quantities, the reference's at the same operations of its own three,
    and the three are equal. -/
theorem algebraic : Cert.algebraic_KernelIdeal_ReferenceIdeal := by
  intro m ρ m' ρ' _ hagree
  refine ⟨fun c => Cert.KernelIdeal.Val.tailK (Cert.KernelIdeal.Val.Rtot m c) (Cert.KernelIdeal.Val.Itot m c) (Cert.KernelIdeal.Val.Stot m c),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.val_main_v22_eq_tail,
    (hagree c).1, (hagree c).2.1, (hagree c).2.2]
  show _ = Cert.KernelIdeal.Val.tailK (Cert.KernelIdeal.Val.Rtot m c) (Cert.KernelIdeal.Val.Itot m c) (Cert.KernelIdeal.Val.Stot m c)
  rw [Cert.KernelIdeal.Val.Rtot_eq m c, Cert.KernelIdeal.Val.Itot_eq m c, Cert.KernelIdeal.Val.Stot_eq m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
